-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144 : Shape := ⟨1, ![262144]⟩
abbrev S384x128 : Shape := ⟨2, ![384, 128]⟩
abbrev S1x384 : Shape := ⟨2, ![1, 384]⟩
abbrev S128x128 : Shape := ⟨2, ![128, 128]⟩
abbrev S128 : Shape := ⟨1, ![128]⟩
abbrev S1x128 : Shape := ⟨2, ![1, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S384x128 : S_.BroadcastsInDim S384x128 (![] : Fin 0 → Fin S384x128.rank)
  reducesTo_S384x128_S_d0_1 : S384x128.ReducesTo [0, 1] S_
  bcast_S_S1x384 : S_.BroadcastsInDim S1x384 (![] : Fin 0 → Fin S1x384.rank)
  reducesTo_S1x384_S_d0_1 : S1x384.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_

variable [Facts]

def fn_part2 {F : FTy → Type} [FloatOps F] (main_arg9 : FVec F S128 .f32) (main_arg10 : FVec F S128x128 .f32) (main_arg11 : FVec F S1x128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S1x128 .f32 := Host.absf main_arg11
  let main_cst_16 : FVec F S_ .f32 := constant S_ .f32 0x7F800000#32
  let main_v45 : FVec F S1x128 .f32 := broadcastInDim S1x128 ![] bcast_S_S1x128 main_cst_16
  let main_v46 : IVec S1x128 1 := cmpf .olt main_v44 main_v45
  let main_c_17 : IVec S_ 1 := constantI S_ 1 1#1
  let main_v47 : IVec S_ 1 := (fun x v => Host.reduce IntOp.andi x v reducesTo_S1x128_S_d0_1 h_S_) main_v46 main_c_17
  let main_v48 : IVec S_ 1 := andi main_v43 main_v47
  main_v48

def fn_part1 {F : FTy → Type} [FloatOps F] (main_arg6 : FVec F S384x128 .f32) (main_arg7 : FVec F S1x384 .f32) (main_arg8 : FVec F S128x128 .f32) (main_arg9 : FVec F S128 .f32) (main_arg10 : FVec F S128x128 .f32) (main_arg11 : FVec F S1x128 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384x128 .f32 := Host.absf main_arg6
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S1x384 .f32 := Host.absf main_arg7
  let main_cst_8 : FVec F S_ .f32 := constant S_ .f32 0x7F800000#32
  let main_v25 : FVec F S1x384 .f32 := broadcastInDim S1x384 ![] bcast_S_S1x384 main_cst_8
  let main_v26 : IVec S1x384 1 := cmpf .olt main_v24 main_v25
  let main_c_9 : IVec S_ 1 := constantI S_ 1 1#1
  let main_v27 : IVec S_ 1 := (fun x v => Host.reduce IntOp.andi x v reducesTo_S1x384_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S262144x128 .f32) (main_arg1 : FVec F S262144x128 .f32) (main_arg2 : FVec F S262144x128 .f32) (main_arg3 : IVec S262144 32) (main_arg4 : IVec S262144 32) (main_arg5 : FVec F S384x128 .f32) (main_arg6 : FVec F S384x128 .f32) (main_arg7 : FVec F S1x384 .f32) (main_arg8 : FVec F S128x128 .f32) (main_arg9 : FVec F S128 .f32) (main_arg10 : FVec F S128x128 .f32) (main_arg11 : FVec F S1x128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  let main_v14 : FVec F S384x128 .f32 := Host.absf main_arg5
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg6 main_arg7 main_arg8 main_arg9 main_arg10 main_arg11 main_v13 main_v16
-- ==== Kernel.lean ====
abbrev S262144x128 : Shape := ⟨2, ![262144, 128]⟩
abbrev S262144 : Shape := ⟨1, ![262144]⟩
abbrev S384x128 : Shape := ⟨2, ![384, 128]⟩
abbrev S1x384 : Shape := ⟨2, ![1, 384]⟩
abbrev S128x128 : Shape := ⟨2, ![128, 128]⟩
abbrev S128 : Shape := ⟨1, ![128]⟩
abbrev S1x128 : Shape := ⟨2, ![1, 128]⟩
abbrev S262144x256 : Shape := ⟨2, ![262144, 256]⟩
abbrev S_ : Shape := ⟨0, ![]⟩
abbrev S262144x1 : Shape := ⟨2, ![262144, 1]⟩
abbrev S512x128 : Shape := ⟨2, ![512, 128]⟩
abbrev S128x512 : Shape := ⟨2, ![128, 512]⟩
abbrev S128x384 : Shape := ⟨2, ![128, 384]⟩
abbrev S2048x128 : Shape := ⟨2, ![2048, 128]⟩
abbrev S2048x256 : Shape := ⟨2, ![2048, 256]⟩
abbrev S2048x512 : Shape := ⟨2, ![2048, 512]⟩
abbrev S2048x384 : Shape := ⟨2, ![2048, 384]⟩

abbrev nBuf : Space → Nat
  | .hbm => 36
  | .vmem => 16
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S262144, .i32⟩
  | .hbm, ⟨4, _⟩ => ⟨S262144, .i32⟩
  | .hbm, ⟨5, _⟩ => ⟨S384x128, .f32⟩
  | .hbm, ⟨6, _⟩ => ⟨S384x128, .f32⟩
  | .hbm, ⟨7, _⟩ => ⟨S1x384, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x128, .f32⟩
  | .hbm, ⟨12, _⟩ => ⟨S262144x256, .f32⟩
  | .hbm, ⟨13, _⟩ => ⟨S_, .i32⟩
  | .hbm, ⟨14, _⟩ => ⟨S262144, .i32⟩
  | .hbm, ⟨15, _⟩ => ⟨S262144, .i1⟩
  | .hbm, ⟨16, _⟩ => ⟨S_, .i32⟩
  | .hbm, ⟨17, _⟩ => ⟨S262144, .i32⟩
  | .hbm, ⟨18, _⟩ => ⟨S262144, .i32⟩
  | .hbm, ⟨19, _⟩ => ⟨S262144, .i32⟩
  | .hbm, ⟨20, _⟩ => ⟨S262144x1, .i32⟩
  | .hbm, ⟨21, _⟩ => ⟨S262144x256, .f32⟩
  | .hbm, ⟨22, _⟩ => ⟨S_, .f32⟩
  | .hbm, ⟨23, _⟩ => ⟨S262144x256, .f32⟩
  | .hbm, ⟨24, _⟩ => ⟨S262144x1, .i32⟩
  | .hbm, ⟨25, _⟩ => ⟨S262144x256, .f32⟩
  | .hbm, ⟨26, _⟩ => ⟨S512x128, .f32⟩
  | .hbm, ⟨27, _⟩ => ⟨S128x512, .f32⟩
  | .hbm, ⟨28, _⟩ => ⟨S128x512, .bf16⟩
  | .hbm, ⟨29, _⟩ => ⟨S128x128, .f32⟩
  | .hbm, ⟨30, _⟩ => ⟨S128x128, .bf16⟩
  | .hbm, ⟨31, _⟩ => ⟨S128x384, .f32⟩
  | .hbm, ⟨32, _⟩ => ⟨S128x384, .bf16⟩
  | .hbm, ⟨33, _⟩ => ⟨S1x128, .f32⟩
  | .hbm, ⟨34, _⟩ => ⟨S262144x128, .f32⟩
  | .hbm, ⟨35, _⟩ => ⟨S262144x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x256, .f32⟩
  | .local _ .vmem, ⟨5, _⟩ => ⟨S2048x256, .f32⟩
  | .local _ .vmem, ⟨6, _⟩ => ⟨S128x512, .bf16⟩
  | .local _ .vmem, ⟨7, _⟩ => ⟨S128x128, .bf16⟩
  | .local _ .vmem, ⟨8, _⟩ => ⟨S1x128, .f32⟩
  | .local _ .vmem, ⟨9, _⟩ => ⟨S1x128, .f32⟩
  | .local _ .vmem, ⟨10, _⟩ => ⟨S128x384, .bf16⟩
  | .local _ .vmem, ⟨11, _⟩ => ⟨S1x384, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19_0 : Ref sig .tc := ⟨.hbm, 34, rfl⟩
abbrev main_v19_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  concatenates_S262144x128_S262144x128_S262144x256_d1 : Shape.Concatenates [S262144x128, S262144x128] S262144x256 1
  bcast_S_S262144 : S_.BroadcastsInDim S262144 (![] : Fin 0 → Fin S262144.rank)
  bcast_S262144_S262144x1_0 : S262144.BroadcastsInDim S262144x1 (![0] : Fin 1 → Fin S262144x1.rank)
  bcast_S_S262144x256 : S_.BroadcastsInDim S262144x256 (![] : Fin 0 → Fin S262144x256.rank)
  concatenates_S128x128_S384x128_S512x128_d0 : Shape.Concatenates [S128x128, S384x128] S512x128 0
  transposes_S512x128_S128x512_1_0 : S512x128.Transposes [1, 0] S128x512
  bitsLt_bf16_f32 : FTy.bits .bf16 < FTy.bits .f32
  transposes_S128x128_S128x128_1_0 : S128x128.Transposes [1, 0] S128x128
  transposes_S384x128_S128x384_1_0 : S384x128.Transposes [1, 0] S128x384
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  slices_S2048x256_o0_0_S2048x128 : S2048x256.Slices ![0, 0] S2048x128
  slices_S2048x256_o0_128_S2048x128 : S2048x256.Slices ![0, 128] S2048x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  slices_S2048x512_o0_0_S2048x128 : S2048x512.Slices ![0, 0] S2048x128
  slices_S2048x512_o0_128_S2048x384 : S2048x512.Slices ![0, 128] S2048x384
  broadcasts_S1x128_S2048x128 : S1x128.Broadcasts S2048x128
  broadcasts_S1x384_S2048x384 : S1x384.Broadcasts S2048x384
  slices_S2048x384_o0_0_S2048x128 : S2048x384.Slices ![0, 0] S2048x128
  slices_S2048x384_o0_128_S2048x128 : S2048x384.Slices ![0, 128] S2048x128
  slices_S2048x384_o0_256_S2048x128 : S2048x384.Slices ![0, 256] S2048x128
  gather_S262144x256_S262144x1_S262144x256_1_0_n_n_0_1_1256_wf : GatherDims.WF S262144x256 S262144x1 S262144x256 [1] [0] [] [0] [] 1 ![1, 256]
  scatter_S262144x256_S262144x1_S262144x256_1_0_0_1_wf : ScatterDims.WF S262144x256 S262144x1 S262144x256 [1] [0] [0] 1
  dot_S2048x128_S128x512_S2048x512_1_0_0_1_n_n_wf : DotDims.WF S2048x128 S128x512 S2048x512 [1] [0] [0] [1] [] []
  dot_S2048x128_S128x128_S2048x128_1_0_0_1_n_n_wf : DotDims.WF S2048x128 S128x128 S2048x128 [1] [0] [0] [1] [] []
  dot_S2048x128_S128x384_S2048x384_1_0_0_1_n_n_wf : DotDims.WF S2048x128 S128x384 S2048x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S262144x128.size a
  hwx0_1 : ∀ i : grid0.Coords, EltTy.bits .f32 = 32 ∨ (Rect.block (s := S262144x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S262144x256.size a
  hwx0_2 : ∀ i : grid0.Coords, EltTy.bits .f32 = 32 ∨ (Rect.block (s := S262144x256) S2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x384.size a ≤ S128x384.size a
  hwx0_7 : ∀ i : grid0.Coords, EltTy.bits .bf16 = 32 ∨ (Rect.block (s := S128x384) S128x384.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x384.size a ≤ S1x384.size a
  hwx0_8 : ∀ i : grid0.Coords, EltTy.bits .f32 = 32 ∨ (Rect.block (s := S1x384) S1x384.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x128.size a ≤ S262144x128.size a
  hwx0_9 : ∀ i : grid0.Coords, EltTy.bits .f32 = 32 ∨ (Rect.block (s := S262144x128) S2048x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x128.size a ≤ S262144x128.size a
  hwx0_10 : ∀ i : grid0.Coords, EltTy.bits .f32 = 32 ∨ (Rect.block (s := S262144x128) S2048x128.size (cc0_transform_10 i) (hinb0_10 i)).WholeWords (EltTy.packing .f32)

variable [Facts₀]

def gather_S262144x256_S262144x1_S262144x256_1_0_n_n_0_1_1256 : GatherDims S262144x256 S262144x1 S262144x256 where
  offsetDims := [1]
  collapsedSliceDims := [0]
  operandBatchingDims := []
  startIndicesBatchingDims := []
  startIndexMap := [0]
  indexVectorDim := 1
  sliceSizes := ![1, 256]
  wf := gather_S262144x256_S262144x1_S262144x256_1_0_n_n_0_1_1256_wf
def scatter_S262144x256_S262144x1_S262144x256_1_0_0_1 : ScatterDims S262144x256 S262144x1 S262144x256 where
  updateWindowDims := [1]
  insertedWindowDims := [0]
  scatterDimsToOperandDims := [0]
  indexVectorDim := 1
  wf := scatter_S262144x256_S262144x1_S262144x256_1_0_0_1_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x384_S2048x384_1_0_0_1_n_n : DotDims S2048x128 S128x384 S2048x384 where
  lhsContracting := [1]
  rhsContracting := [0]
  lhsNonContracting := [0]
  rhsNonContracting := [1]
  lhsBatch := []
  rhsBatch := []
  wf := dot_S2048x128_S128x384_S2048x384_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg11) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S128x384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S1x384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19_0) S2048x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v19_1) S2048x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S262144x128 : Shape := ⟨2, ![262144, 128]⟩
abbrev S262144 : Shape := ⟨1, ![262144]⟩
abbrev S384x128 : Shape := ⟨2, ![384, 128]⟩
abbrev S1x384 : Shape := ⟨2, ![1, 384]⟩
abbrev S128x128 : Shape := ⟨2, ![128, 128]⟩
abbrev S128 : Shape := ⟨1, ![128]⟩
abbrev S1x128 : Shape := ⟨2, ![1, 128]⟩
abbrev S_ : Shape := ⟨0, ![]⟩
abbrev S262144x1 : Shape := ⟨2, ![262144, 1]⟩
abbrev S128x384 : Shape := ⟨2, ![128, 384]⟩
abbrev S262144x384 : Shape := ⟨2, ![262144, 384]⟩

abbrev nBuf : Space → Nat
  | .hbm => 88
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S262144, .i32⟩
  | .hbm, ⟨4, _⟩ => ⟨S262144, .i32⟩
  | .hbm, ⟨5, _⟩ => ⟨S384x128, .f32⟩
  | .hbm, ⟨6, _⟩ => ⟨S384x128, .f32⟩
  | .hbm, ⟨7, _⟩ => ⟨S1x384, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x128, .f32⟩
  | .hbm, ⟨12, _⟩ => ⟨S_, .i32⟩
  | .hbm, ⟨13, _⟩ => ⟨S262144, .i32⟩
  | .hbm, ⟨14, _⟩ => ⟨S262144, .i1⟩
  | .hbm, ⟨15, _⟩ => ⟨S_, .i32⟩
  | .hbm, ⟨16, _⟩ => ⟨S262144, .i32⟩
  | .hbm, ⟨17, _⟩ => ⟨S262144, .i32⟩
  | .hbm, ⟨18, _⟩ => ⟨S262144, .i32⟩
  | .hbm, ⟨19, _⟩ => ⟨S262144x1, .i32⟩
  | .hbm, ⟨20, _⟩ => ⟨S262144x128, .f32⟩
  | .hbm, ⟨21, _⟩ => ⟨S_, .f32⟩
  | .hbm, ⟨22, _⟩ => ⟨S262144x128, .f32⟩
  | .hbm, ⟨23, _⟩ => ⟨S262144x1, .i32⟩
  | .hbm, ⟨24, _⟩ => ⟨S262144x128, .f32⟩
  | .hbm, ⟨25, _⟩ => ⟨S_, .i32⟩
  | .hbm, ⟨26, _⟩ => ⟨S262144, .i32⟩
  | .hbm, ⟨27, _⟩ => ⟨S262144, .i1⟩
  | .hbm, ⟨28, _⟩ => ⟨S_, .i32⟩
  | .hbm, ⟨29, _⟩ => ⟨S262144, .i32⟩
  | .hbm, ⟨30, _⟩ => ⟨S262144, .i32⟩
  | .hbm, ⟨31, _⟩ => ⟨S262144, .i32⟩
  | .hbm, ⟨32, _⟩ => ⟨S262144x1, .i32⟩
  | .hbm, ⟨33, _⟩ => ⟨S262144x128, .f32⟩
  | .hbm, ⟨34, _⟩ => ⟨S_, .f32⟩
  | .hbm, ⟨35, _⟩ => ⟨S262144x128, .f32⟩
  | .hbm, ⟨36, _⟩ => ⟨S262144x1, .i32⟩
  | .hbm, ⟨37, _⟩ => ⟨S262144x128, .f32⟩
  | .hbm, ⟨38, _⟩ => ⟨S128x128, .f32⟩
  | .hbm, ⟨39, _⟩ => ⟨S262144x128, .f32⟩
  | .hbm, ⟨40, _⟩ => ⟨S128x128, .f32⟩
  | .hbm, ⟨41, _⟩ => ⟨S262144x128, .f32⟩
  | .hbm, ⟨42, _⟩ => ⟨S262144x128, .f32⟩
  | .hbm, ⟨43, _⟩ => ⟨S1x128, .f32⟩
  | .hbm, ⟨44, _⟩ => ⟨S262144x128, .f32⟩
  | .hbm, ⟨45, _⟩ => ⟨S262144x128, .f32⟩
  | .hbm, ⟨46, _⟩ => ⟨S262144x128, .f32⟩
  | .hbm, ⟨47, _⟩ => ⟨S262144x128, .f32⟩
  | .hbm, ⟨48, _⟩ => ⟨S262144x128, .f32⟩
  | .hbm, ⟨49, _⟩ => ⟨S262144x128, .f32⟩
  | .hbm, ⟨50, _⟩ => ⟨S_, .f32⟩
  | .hbm, ⟨51, _⟩ => ⟨S262144x128, .f32⟩
  | .hbm, ⟨52, _⟩ => ⟨S262144x128, .f32⟩
  | .hbm, ⟨53, _⟩ => ⟨S_, .f32⟩
  | .hbm, ⟨54, _⟩ => ⟨S262144x128, .f32⟩
  | .hbm, ⟨55, _⟩ => ⟨S262144x128, .f32⟩
  | .hbm, ⟨56, _⟩ => ⟨S262144x128, .f32⟩
  | .hbm, ⟨57, _⟩ => ⟨S128x384, .f32⟩
  | .hbm, ⟨58, _⟩ => ⟨S262144x384, .f32⟩
  | .hbm, ⟨59, _⟩ => ⟨S128x384, .f32⟩
  | .hbm, ⟨60, _⟩ => ⟨S262144x384, .f32⟩
  | .hbm, ⟨61, _⟩ => ⟨S262144x384, .f32⟩
  | .hbm, ⟨62, _⟩ => ⟨S262144x384, .f32⟩
  | .hbm, ⟨63, _⟩ => ⟨S262144x384, .f32⟩
  | .hbm, ⟨64, _⟩ => ⟨S262144x128, .f32⟩
  | .hbm, ⟨65, _⟩ => ⟨S262144x128, .f32⟩
  | .hbm, ⟨66, _⟩ => ⟨S262144x128, .f32⟩
  | .hbm, ⟨67, _⟩ => ⟨S262144x128, .f32⟩
  | .hbm, ⟨68, _⟩ => ⟨S262144x128, .f32⟩
  | .hbm, ⟨69, _⟩ => ⟨S_, .f32⟩
  | .hbm, ⟨70, _⟩ => ⟨S262144x128, .f32⟩
  | .hbm, ⟨71, _⟩ => ⟨S262144x128, .f32⟩
  | .hbm, ⟨72, _⟩ => ⟨S_, .f32⟩
  | .hbm, ⟨73, _⟩ => ⟨S262144x128, .f32⟩
  | .hbm, ⟨74, _⟩ => ⟨S262144x128, .f32⟩
  | .hbm, ⟨75, _⟩ => ⟨S262144x128, .f32⟩
  | .hbm, ⟨76, _⟩ => ⟨S262144x128, .f32⟩
  | .hbm, ⟨77, _⟩ => ⟨S262144x128, .f32⟩
  | .hbm, ⟨78, _⟩ => ⟨S262144x128, .f32⟩
  | .hbm, ⟨79, _⟩ => ⟨S262144x128, .f32⟩
  | .hbm, ⟨80, _⟩ => ⟨S_, .f32⟩
  | .hbm, ⟨81, _⟩ => ⟨S262144x128, .f32⟩
  | .hbm, ⟨82, _⟩ => ⟨S262144x128, .f32⟩
  | .hbm, ⟨83, _⟩ => ⟨S_, .f32⟩
  | .hbm, ⟨84, _⟩ => ⟨S262144x128, .f32⟩
  | .hbm, ⟨85, _⟩ => ⟨S262144x128, .f32⟩
  | .hbm, ⟨86, _⟩ => ⟨S262144x128, .f32⟩
  | .hbm, ⟨87, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_cst_7 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_8 : Ref sig .tc := ⟨.hbm, 80, rfl⟩
abbrev main_v58 : Ref sig .tc := ⟨.hbm, 81, rfl⟩
abbrev main_v59 : Ref sig .tc := ⟨.hbm, 82, rfl⟩
abbrev main_cst_9 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bcast_S_S262144x128 : S_.BroadcastsInDim S262144x128 (![] : Fin 0 → Fin S262144x128.rank)
  transposes_S128x128_S128x128_1_0 : S128x128.Transposes [1, 0] S128x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  transposes_S384x128_S128x384_1_0 : S384x128.Transposes [1, 0] S128x384
  bcast_S1x384_S262144x384_0_1 : S1x384.BroadcastsInDim S262144x384 (![0, 1] : Fin 2 → Fin S262144x384.rank)
  slices_S262144x384_S262144x128_0_0 : S262144x384.Slices ![0, 0] S262144x128
  slices_S262144x384_S262144x128_0_128 : S262144x384.Slices ![0, 128] S262144x128
  slices_S262144x384_S262144x128_0_256 : S262144x384.Slices ![0, 256] S262144x128
  gather_S262144x128_S262144x1_S262144x128_1_0_n_n_0_1_1128_wf : GatherDims.WF S262144x128 S262144x1 S262144x128 [1] [0] [] [0] [] 1 ![1, 128]
  scatter_S262144x128_S262144x1_S262144x128_1_0_0_1_wf : ScatterDims.WF S262144x128 S262144x1 S262144x128 [1] [0] [0] 1
  dot_S262144x128_S128x128_S262144x128_1_0_0_1_n_n_wf : DotDims.WF S262144x128 S128x128 S262144x128 [1] [0] [0] [1] [] []
  dot_S262144x128_S128x384_S262144x384_1_0_0_1_n_n_wf : DotDims.WF S262144x128 S128x384 S262144x384 [1] [0] [0] [1] [] []

variable [Facts₀]

def gather_S262144x128_S262144x1_S262144x128_1_0_n_n_0_1_1128 : GatherDims S262144x128 S262144x1 S262144x128 where
  offsetDims := [1]
  collapsedSliceDims := [0]
  operandBatchingDims := []
  startIndicesBatchingDims := []
  startIndexMap := [0]
  indexVectorDim := 1
  sliceSizes := ![1, 128]
  wf := gather_S262144x128_S262144x1_S262144x128_1_0_n_n_0_1_1128_wf
def scatter_S262144x128_S262144x1_S262144x128_1_0_0_1 : ScatterDims S262144x128 S262144x1 S262144x128 where
  updateWindowDims := [1]
  insertedWindowDims := [0]
  scatterDimsToOperandDims := [0]
  indexVectorDim := 1
  wf := scatter_S262144x128_S262144x1_S262144x128_1_0_0_1_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S262144x128_S128x384_S262144x384_1_0_0_1_n_n : DotDims S262144x128 S128x384 S262144x384 where
  lhsContracting := [1]
  rhsContracting := [0]
  lhsNonContracting := [0]
  rhsNonContracting := [1]
  lhsBatch := []
  rhsBatch := []
  wf := dot_S262144x128_S128x384_S262144x384_1_0_0_1_n_n_wf

class Facts : Prop extends Facts₀ where

variable [Facts]
-- ==== Proof.LibGatherRows.lean ====
/-
  GATHER OF ROWS, READ AT AN ENTRY.

  A StableHLO gather that takes whole rows of a matrix `x : [N, C]` at a column of start indices
  `idx : [T, 1]` (offset axis 1, collapsed axis 0, start index map `[0]`, index vector on axis 1, slice
  sizes `[1, C]`) has at entry `(e, c)` the value `x[r, c]`, where `r` is the start index `idx[e, 0]` read
  as a signed integer and clamped into `[0, N - 1]` (`gather_rows_apply`).  The same gather of a vector
  `x : [N]` (no offset axis, slice sizes `[1]`) has at entry `e` the value `x[r]` (`gather_vec_apply`).

  Each is proved first for the record written out with these fields (`rowsDims`, `vecDims`) and then
  stated for ANY record of dimension numbers whose fields are the ones above, so that it applies to a
  record however it was written down.
-/
import Idealize.ShloMosaic.Lib.ValueIdx

noncomputable section

namespace Cert.GatherRows

open Idealize.ShloMosaic Idealize.ShloMosaic.ValueIdx

/-- the operand row an edge reads: its start index read signed and clamped into [0, N-1] -/
def rowAt {T w : ℕ} (N : ℕ) (hN : 0 < N) (idx : IVec ⟨2, ![T, 1]⟩ w) (e : Fin T) : Fin N :=
  ⟨min (idx (ix2 e (0 : Fin 1))).toInt.toNat (N - 1), by omega⟩

/-! ## Rows of a matrix -/

/-- The dimension numbers of a gather of rows: operand `[N, C]`, start indices `[T, 1]`, result `[T, C]`. -/
abbrev rowsDims (N C T : ℕ)
    (wf : GatherDims.WF ⟨2, ![N, C]⟩ ⟨2, ![T, 1]⟩ ⟨2, ![T, C]⟩ [1] [0] [] [0] [] 1 ![1, C]) :
    GatherDims ⟨2, ![N, C]⟩ ⟨2, ![T, 1]⟩ ⟨2, ![T, C]⟩ where
  offsetDims := [1]
  collapsedSliceDims := [0]
  operandBatchingDims := []
  startIndicesBatchingDims := []
  startIndexMap := [0]
  indexVectorDim := 1
  sliceSizes := ![1, C]
  wf := wf

/-- The start-indices entry result entry `(e, c)` reads: `(e, 0)`. -/
theorem rowsDims_siIdx {N C T : ℕ}
    (wf : GatherDims.WF ⟨2, ![N, C]⟩ ⟨2, ![T, 1]⟩ ⟨2, ![T, C]⟩ [1] [0] [] [0] [] 1 ![1, C])
    (e : Fin T) (c : Fin C) :
    (rowsDims N C T wf).siIdx (ix2 e c) ⟨List.idxOf (0 : Fin 2) (rowsDims N C T wf).startIndexMap,
      List.idxOf_lt_length_iff.2 (List.mem_singleton.mpr rfl)⟩ = ix2 e (0 : Fin 1) := by
  funext b; refine Fin.ext ?_
  match b with
  | ⟨0, _⟩ => rfl
  | ⟨1, _⟩ => rfl

/-- The gather of rows at the written-out record, read at an entry. -/
theorem gather_rowsDims_apply {α : Type} {N C T w : ℕ} (hN : 0 < N)
    (wf : GatherDims.WF ⟨2, ![N, C]⟩ ⟨2, ![T, 1]⟩ ⟨2, ![T, C]⟩ [1] [0] [] [0] [] 1 ![1, C])
    (x : (⟨2, ![N, C]⟩ : Shape).Idx → α) (idx : IVec ⟨2, ![T, 1]⟩ w) (e : Fin T) (c : Fin C) :
    Host.gather (rowsDims N C T wf) x idx (ix2 e c) = x (ix2 (rowAt N hN idx e) c) := by
  unfold Host.gather
  congr 1
  funext a
  refine Fin.ext ?_
  match a with
  | ⟨0, _⟩ =>
    -- the row axis: the clamped start, no batching and no offset coordinate
    show (rowsDims N C T wf).start (ix2 e c) idx 0 + (rowsDims N C T wf).batchCoord (ix2 e c) 0
      + (rowsDims N C T wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C T wf).startIndexMap from List.mem_singleton.mpr rfl)]
    rw [rowsDims_siIdx wf e c]
    rfl
  | ⟨1, _⟩ =>
    -- the column axis: start 0, no batching coordinate, the offset coordinate is the result's column
    show (rowsDims N C T wf).start (ix2 e c) idx 1 + (rowsDims N C T wf).batchCoord (ix2 e c) 1
      + (rowsDims N C T wf).offCoord (ix2 e c) 1 = c.val
    rw [GatherDims.batchCoord_eq_zero _ _ _ List.not_mem_nil]
    unfold GatherDims.start
    rw [dif_neg (show (1 : Fin 2) ∉ (rowsDims N C T wf).startIndexMap from
      fun h => Nat.one_ne_zero (congrArg Fin.val (List.mem_singleton.mp h)))]
    simp only [Nat.add_zero, Nat.zero_add]
    rfl

/-- THE GATHER OF ROWS READ AT `(e, c)`: row `rowAt N hN idx e` of the operand, column `c`; for any record
    with these dimension numbers. -/
theorem gather_rows_apply {α : Type} {N C T w : ℕ} (hN : 0 < N)
    (d : GatherDims ⟨2, ![N, C]⟩ ⟨2, ![T, 1]⟩ ⟨2, ![T, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![T, 1]⟩ w) (e : Fin T) (c : Fin C) :
    Host.gather d x idx (ix2 e c) = x (ix2 (rowAt N hN idx e) c) := by
  obtain ⟨od, cd, ob, sb, sm, iv, ss, wf⟩ := d
  simp only at h1 h2 h3 h4 h5 h6 h7
  subst h1 h2 h3 h4 h5 h6 h7
  exact gather_rowsDims_apply hN wf x idx e c

/-! ## Entries of a vector -/

/-- The dimension numbers of the same gather of a vector: operand `[N]`, start indices `[T, 1]`, result `[T]`. -/
abbrev vecDims (N T : ℕ)
    (wf : GatherDims.WF ⟨1, ![N]⟩ ⟨2, ![T, 1]⟩ ⟨1, ![T]⟩ [] [0] [] [0] [] 1 ![1]) :
    GatherDims ⟨1, ![N]⟩ ⟨2, ![T, 1]⟩ ⟨1, ![T]⟩ where
  offsetDims := []
  collapsedSliceDims := [0]
  operandBatchingDims := []
  startIndicesBatchingDims := []
  startIndexMap := [0]
  indexVectorDim := 1
  sliceSizes := ![1]
  wf := wf

/-- The start-indices entry result entry `e` reads: `(e, 0)`. -/
theorem vecDims_siIdx {N T : ℕ}
    (wf : GatherDims.WF ⟨1, ![N]⟩ ⟨2, ![T, 1]⟩ ⟨1, ![T]⟩ [] [0] [] [0] [] 1 ![1]) (e : Fin T) :
    (vecDims N T wf).siIdx (ix1 e) ⟨List.idxOf (0 : Fin 1) (vecDims N T wf).startIndexMap,
      List.idxOf_lt_length_iff.2 (List.mem_singleton.mpr rfl)⟩ = ix2 e (0 : Fin 1) := by
  funext b; refine Fin.ext ?_
  match b with
  | ⟨0, _⟩ => rfl
  | ⟨1, _⟩ => rfl

/-- The gather of a vector at the written-out record, read at an entry. -/
theorem gather_vecDims_apply {α : Type} {N T w : ℕ} (hN : 0 < N)
    (wf : GatherDims.WF ⟨1, ![N]⟩ ⟨2, ![T, 1]⟩ ⟨1, ![T]⟩ [] [0] [] [0] [] 1 ![1])
    (x : (⟨1, ![N]⟩ : Shape).Idx → α) (idx : IVec ⟨2, ![T, 1]⟩ w) (e : Fin T) :
    Host.gather (vecDims N T wf) x idx (ix1 e) = x (ix1 (rowAt N hN idx e)) := by
  unfold Host.gather
  congr 1
  funext a
  obtain rfl : a = 0 := Subsingleton.elim _ _
  refine Fin.ext ?_
  show (vecDims N T wf).start (ix1 e) idx 0 + (vecDims N T wf).batchCoord (ix1 e) 0
    + (vecDims N T wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N T wf).startIndexMap from List.mem_singleton.mpr rfl)]
  rw [vecDims_siIdx wf e]
  rfl

/-- THE GATHER OF A VECTOR READ AT `e`: entry `rowAt N hN idx e` of the operand; for any record with these
    dimension numbers. -/
theorem gather_vec_apply {α : Type} {N T w : ℕ} (hN : 0 < N)
    (d : GatherDims ⟨1, ![N]⟩ ⟨2, ![T, 1]⟩ ⟨1, ![T]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![T, 1]⟩ w) (e : Fin T) :
    Host.gather d x idx (ix1 e) = x (ix1 (rowAt N hN idx e)) := by
  obtain ⟨od, cd, ob, sb, sm, iv, ss, wf⟩ := d
  simp only at h1 h2 h3 h4 h5 h6 h7
  subst h1 h2 h3 h4 h5 h6 h7
  exact gather_vecDims_apply hN wf x idx e

end Cert.GatherRows

end
-- ==== Proof.LibScatterRows.lean ====
/-
  SCATTER-ADD OF ROWS, READ AT AN ENTRY, AT THE IDEAL INSTANCE.

  A StableHLO scatter with an `add` body that adds whole rows `upd : [T, C]` into a matrix `x : [N, C]` at a
  column of scatter indices `idx : [T, 1]` (update window axis 1, inserted window axis 0, scatter axis to
  operand axis `[0]`, index vector on axis 1) has at entry `(v, c)`, over the extended reals, the value
  `x[v, c] + ∑ upd[e, c]` over the edges `e` whose scatter index `idx[e, 0]`, read as a signed integer and
  NOT clamped, is the row `v` (`scatterAdd_rows_apply`): an index outside `[0, N - 1]` lands nowhere.  The
  same scatter of a vector `upd : [T]` into `x : [N]` (no window axis) has at entry `v` the value
  `x[v] + ∑ upd[e]` over the same edges (`scatterAdd_vec_apply`).

  The route: an update entry lands on an operand entry exactly when on every axis its start plus its window
  coordinate is that entry's coordinate (`resultIdx?_eq_some_iff`); on these dimension numbers that says
  "the scatter index is the row, and the column is the same" (`rowsDims_lands_iff`), so the set of update
  entries landing on `(v, c)` is the image of the landing edges under `e ↦ (e, c)`.

  Each theorem is proved first for the record written out with these fields (`rowsDims`, `vecDims`) and
  then stated for ANY record of dimension numbers with these fields.
-/
import Idealize.ShloMosaic.Lib.ValueIdx
import Idealize.ShloMosaic.PureOps.Ideal

noncomputable section

open scoped BigOperators

namespace Cert.ScatterRows

open Idealize.ShloMosaic Idealize.ShloMosaic.ValueIdx

/-- the edges whose scatter index, read signed and NOT clamped, is the row v -/
def landing {T w : ℕ} (idx : IVec ⟨2, ![T, 1]⟩ w) (v : ℕ) : Finset (Fin T) :=
  Finset.univ.filter fun e => (idx (ix2 e (0 : Fin 1))).toInt = (v : ℤ)

/-! ## Where an update entry lands, for any dimension numbers -/

/-- An update entry `j` lands on the operand entry `i` exactly when, on every operand axis, its start plus its
    window coordinate is `i`'s coordinate. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro hs a
    split at hs
    · rename_i h
      have h' := congrArg (fun f => ((f a).val : ℕ)) (Option.some.inj hs)
      simp only at h'
      have := (h a).1
      omega
    · exact absurd hs (by simp)
  · intro hi
    have h : ∀ a, 0 ≤ d.start j idx a + (d.window j a : ℤ) ∧ d.start j idx a + (d.window j a : ℤ) < s.size a := by
      intro a
      have h1 := hi a
      have h2 := (i a).isLt
      constructor <;> omega
    rw [dif_pos h]
    congr 1
    funext a
    refine Fin.ext ?_
    have h1 := hi a
    show (d.start j idx a + (d.window j a : ℤ)).toNat = (i a).val
    omega

/-! ## Rows of a matrix -/

/-- The dimension numbers of a scatter of rows: operand `[N, C]`, scatter indices `[T, 1]`, updates `[T, C]`. -/
abbrev rowsDims (N C T : ℕ) (wf : ScatterDims.WF ⟨2, ![N, C]⟩ ⟨2, ![T, 1]⟩ ⟨2, ![T, C]⟩ [1] [0] [0] 1) :
    ScatterDims ⟨2, ![N, C]⟩ ⟨2, ![T, 1]⟩ ⟨2, ![T, C]⟩ where
  updateWindowDims := [1]
  insertedWindowDims := [0]
  scatterDimsToOperandDims := [0]
  indexVectorDim := 1
  wf := wf

section Rows
variable {N C T w : ℕ} (wf : ScatterDims.WF ⟨2, ![N, C]⟩ ⟨2, ![T, 1]⟩ ⟨2, ![T, C]⟩ [1] [0] [0] 1)

/-- The scatter-indices entry update entry `(e, c')` reads: `(e, 0)`. -/
theorem rowsDims_siIdx (e : Fin T) (c' : Fin C) :
    (rowsDims N C T wf).siIdx (ix2 e c') ⟨List.idxOf (0 : Fin 2) (rowsDims N C T wf).scatterDimsToOperandDims,
      List.idxOf_lt_length_iff.2 (List.mem_singleton.mpr rfl)⟩ = ix2 e (0 : Fin 1) := by
  funext b; refine Fin.ext ?_
  match b with
  | ⟨0, _⟩ => rfl
  | ⟨1, _⟩ => rfl

/-- On the row axis the start is the scatter index read signed … -/
theorem rowsDims_start0 (idx : IVec ⟨2, ![T, 1]⟩ w) (e : Fin T) (c' : Fin C) :
    (rowsDims N C T wf).start (ix2 e c') idx 0 = (idx (ix2 e (0 : Fin 1))).toInt := by
  unfold ScatterDims.start
  rw [dif_pos (show (0 : Fin 2) ∈ (rowsDims N C T wf).scatterDimsToOperandDims from List.mem_singleton.mpr rfl)]
  rw [rowsDims_siIdx wf e c']

/-- … and on the column axis it is `0`. -/
theorem rowsDims_start1 (idx : IVec ⟨2, ![T, 1]⟩ w) (e : Fin T) (c' : Fin C) :
    (rowsDims N C T wf).start (ix2 e c') idx 1 = 0 := by
  unfold ScatterDims.start
  rw [dif_neg (show (1 : Fin 2) ∉ (rowsDims N C T wf).scatterDimsToOperandDims from
    fun h => Nat.one_ne_zero (congrArg Fin.val (List.mem_singleton.mp h)))]

/-- The window coordinate is `0` on the row axis (an inserted axis) … -/
theorem rowsDims_window0 (e : Fin T) (c' : Fin C) : (rowsDims N C T wf).window (ix2 e c') 0 = 0 := rfl

/-- … and the update's column on the column axis. -/
theorem rowsDims_window1 (e : Fin T) (c' : Fin C) : (rowsDims N C T wf).window (ix2 e c') 1 = c'.val := rfl

/-- Update entry `(e, c')` lands on operand entry `(v, c)` exactly when the scatter index of `e`, read signed, is
    `v` and the columns agree. -/
theorem rowsDims_lands_iff (idx : IVec ⟨2, ![T, 1]⟩ w) (e : Fin T) (c' : Fin C) (v : Fin N) (c : Fin C) :
    (rowsDims N C T wf).resultIdx? (ix2 e c') idx = some (ix2 v c)
      ↔ (idx (ix2 e (0 : Fin 1))).toInt = (v.val : ℤ) ∧ c' = c := by
  rw [resultIdx?_eq_some_iff]
  constructor
  · intro h
    have h0 := h 0
    have h1 := h 1
    rw [rowsDims_start0, rowsDims_window0] at h0
    rw [rowsDims_start1, rowsDims_window1] at h1
    refine ⟨?_, Fin.ext ?_⟩
    · have : (((ix2 v c : (⟨2, ![N, C]⟩ : Shape).Idx) 0).val : ℤ) = (v.val : ℤ) := rfl
      omega
    · have : (((ix2 v c : (⟨2, ![N, C]⟩ : Shape).Idx) 1).val : ℤ) = (c.val : ℤ) := rfl
      omega
  · rintro ⟨h0, rfl⟩ a
    match a with
    | ⟨0, _⟩ =>
      show (rowsDims N C T wf).start (ix2 e c') idx 0 + ((rowsDims N C T wf).window (ix2 e c') 0 : ℤ) = (v.val : ℤ)
      rw [rowsDims_start0, rowsDims_window0, h0]; simp
    | ⟨1, _⟩ =>
      show (rowsDims N C T wf).start (ix2 e c') idx 1 + ((rowsDims N C T wf).window (ix2 e c') 1 : ℤ) = (c'.val : ℤ)
      rw [rowsDims_start1, rowsDims_window1]; simp

/-- The update entries landing on `(v, c)` are the entries `(e, c)` of the landing edges `e`. -/
theorem rowsDims_filter_eq (idx : IVec ⟨2, ![T, 1]⟩ w) (v : Fin N) (c : Fin C) :
    (Finset.univ.filter fun j => (rowsDims N C T wf).resultIdx? j idx = some (ix2 v c))
      = (landing idx v.val).map ⟨fun e => (ix2 e c : (⟨2, ![T, C]⟩ : Shape).Idx),
          fun e e' h => congrFun h 0⟩ := by
  ext j
  obtain ⟨e, c', rfl⟩ : ∃ e c', j = ix2 e c' := ⟨j 0, j 1, eq_ix2 j⟩
  simp only [Finset.mem_filter, Finset.mem_univ, true_and, Finset.mem_map, Function.Embedding.coeFn_mk, landing]
  rw [rowsDims_lands_iff]
  constructor
  · rintro ⟨h, rfl⟩
    exact ⟨e, h, rfl⟩
  · rintro ⟨e', h, he⟩
    have h0 : e' = e := congrFun he 0
    have h1 : c = c' := congrFun he 1
    subst h0 h1
    exact ⟨h, rfl⟩

/-- The scatter-add of rows at the written-out record, read at an entry. -/
theorem scatterAdd_rowsDims_apply {φ : FTy} (x : FVec Ideal ⟨2, ![N, C]⟩ φ) (idx : IVec ⟨2, ![T, 1]⟩ w)
    (upd : FVec Ideal ⟨2, ![T, C]⟩ φ) (v : Fin N) (c : Fin C) :
    Host.scatterAdd (rowsDims N C T wf) x idx upd (ix2 v c) = x (ix2 v c) + ∑ e ∈ landing idx v.val, upd (ix2 e c) := by
  show Ideal.hostScatterAdd (rowsDims N C T wf) x idx upd (ix2 v c) = _
  unfold Ideal.hostScatterAdd
  rw [rowsDims_filter_eq wf idx v c, Finset.sum_map]
  rfl

end Rows

/-- THE SCATTER-ADD OF ROWS READ AT `(v, c)`: the operand's entry plus the updates' column-`c` entries over the edges
    landing on row `v`; for any record with these dimension numbers. -/
theorem scatterAdd_rows_apply {N C T w : ℕ} {φ : FTy} (d : ScatterDims ⟨2, ![N, C]⟩ ⟨2, ![T, 1]⟩ ⟨2, ![T, C]⟩)
    (h1 : d.updateWindowDims = [1]) (h2 : d.insertedWindowDims = [0]) (h3 : d.scatterDimsToOperandDims = [0])
    (h4 : d.indexVectorDim = 1)
    (x : FVec Ideal ⟨2, ![N, C]⟩ φ) (idx : IVec ⟨2, ![T, 1]⟩ w) (upd : FVec Ideal ⟨2, ![T, C]⟩ φ)
    (v : Fin N) (c : Fin C) :
    Host.scatterAdd d x idx upd (ix2 v c) = x (ix2 v c) + ∑ e ∈ landing idx v.val, upd (ix2 e c) := by
  obtain ⟨uw, iw, sd, iv, wf⟩ := d
  simp only at h1 h2 h3 h4
  subst h1 h2 h3 h4
  exact scatterAdd_rowsDims_apply wf x idx upd v c

/-! ## Entries of a vector -/

/-- The dimension numbers of the same scatter of a vector: operand `[N]`, scatter indices `[T, 1]`, updates `[T]`. -/
abbrev vecDims (N T : ℕ) (wf : ScatterDims.WF ⟨1, ![N]⟩ ⟨2, ![T, 1]⟩ ⟨1, ![T]⟩ [] [0] [0] 1) :
    ScatterDims ⟨1, ![N]⟩ ⟨2, ![T, 1]⟩ ⟨1, ![T]⟩ where
  updateWindowDims := []
  insertedWindowDims := [0]
  scatterDimsToOperandDims := [0]
  indexVectorDim := 1
  wf := wf

section Vec
variable {N T w : ℕ} (wf : ScatterDims.WF ⟨1, ![N]⟩ ⟨2, ![T, 1]⟩ ⟨1, ![T]⟩ [] [0] [0] 1)

/-- The scatter-indices entry update entry `e` reads: `(e, 0)`. -/
theorem vecDims_siIdx (e : Fin T) :
    (vecDims N T wf).siIdx (ix1 e) ⟨List.idxOf (0 : Fin 1) (vecDims N T wf).scatterDimsToOperandDims,
      List.idxOf_lt_length_iff.2 (List.mem_singleton.mpr rfl)⟩ = ix2 e (0 : Fin 1) := by
  funext b; refine Fin.ext ?_
  match b with
  | ⟨0, _⟩ => rfl
  | ⟨1, _⟩ => rfl

/-- On the one operand axis the start is the scatter index read signed … -/
theorem vecDims_start0 (idx : IVec ⟨2, ![T, 1]⟩ w) (e : Fin T) :
    (vecDims N T wf).start (ix1 e) idx 0 = (idx (ix2 e (0 : Fin 1))).toInt := by
  unfold ScatterDims.start
  rw [dif_pos (show (0 : Fin 1) ∈ (vecDims N T wf).scatterDimsToOperandDims from List.mem_singleton.mpr rfl)]
  rw [vecDims_siIdx wf e]

/-- … and the window coordinate is `0` (an inserted axis). -/
theorem vecDims_window0 (e : Fin T) : (vecDims N T wf).window (ix1 e) 0 = 0 := rfl

/-- Update entry `e` lands on operand entry `v` exactly when its scatter index, read signed, is `v`. -/
theorem vecDims_lands_iff (idx : IVec ⟨2, ![T, 1]⟩ w) (e : Fin T) (v : Fin N) :
    (vecDims N T wf).resultIdx? (ix1 e) idx = some (ix1 v) ↔ (idx (ix2 e (0 : Fin 1))).toInt = (v.val : ℤ) := by
  rw [resultIdx?_eq_some_iff]
  constructor
  · intro h
    have h0 := h 0
    rw [vecDims_start0, vecDims_window0] at h0
    have : (((ix1 v : (⟨1, ![N]⟩ : Shape).Idx) 0).val : ℤ) = (v.val : ℤ) := rfl
    omega
  · intro h0 a
    obtain rfl : a = 0 := Subsingleton.elim _ _
    show (vecDims N T wf).start (ix1 e) idx 0 + ((vecDims N T wf).window (ix1 e) 0 : ℤ) = (v.val : ℤ)
    rw [vecDims_start0, vecDims_window0, h0]; simp

/-- The update entries landing on `v` are the landing edges. -/
theorem vecDims_filter_eq (idx : IVec ⟨2, ![T, 1]⟩ w) (v : Fin N) :
    (Finset.univ.filter fun j => (vecDims N T wf).resultIdx? j idx = some (ix1 v))
      = (landing idx v.val).map ⟨fun e => (ix1 e : (⟨1, ![T]⟩ : Shape).Idx), fun e e' h => congrFun h 0⟩ := by
  ext j
  obtain ⟨e, rfl⟩ : ∃ e, j = ix1 e := ⟨j 0, eq_ix1 j⟩
  simp only [Finset.mem_filter, Finset.mem_univ, true_and, Finset.mem_map, Function.Embedding.coeFn_mk, landing]
  rw [vecDims_lands_iff]
  constructor
  · intro h
    exact ⟨e, h, rfl⟩
  · rintro ⟨e', h, he⟩
    have h0 : e' = e := congrFun he 0
    subst h0
    exact h

/-- The scatter-add of a vector at the written-out record, read at an entry. -/
theorem scatterAdd_vecDims_apply {φ : FTy} (x : FVec Ideal ⟨1, ![N]⟩ φ) (idx : IVec ⟨2, ![T, 1]⟩ w)
    (upd : FVec Ideal ⟨1, ![T]⟩ φ) (v : Fin N) :
    Host.scatterAdd (vecDims N T wf) x idx upd (ix1 v) = x (ix1 v) + ∑ e ∈ landing idx v.val, upd (ix1 e) := by
  show Ideal.hostScatterAdd (vecDims N T wf) x idx upd (ix1 v) = _
  unfold Ideal.hostScatterAdd
  rw [vecDims_filter_eq wf idx v, Finset.sum_map]
  rfl

end Vec

/-- THE SCATTER-ADD OF A VECTOR READ AT `v`: the operand's entry plus the updates over the edges landing on `v`; for
    any record with these dimension numbers. -/
theorem scatterAdd_vec_apply {N T w : ℕ} {φ : FTy} (d : ScatterDims ⟨1, ![N]⟩ ⟨2, ![T, 1]⟩ ⟨1, ![T]⟩)
    (h1 : d.updateWindowDims = []) (h2 : d.insertedWindowDims = [0]) (h3 : d.scatterDimsToOperandDims = [0])
    (h4 : d.indexVectorDim = 1)
    (x : FVec Ideal ⟨1, ![N]⟩ φ) (idx : IVec ⟨2, ![T, 1]⟩ w) (upd : FVec Ideal ⟨1, ![T]⟩ φ) (v : Fin N) :
    Host.scatterAdd d x idx upd (ix1 v) = x (ix1 v) + ∑ e ∈ landing idx v.val, upd (ix1 e) := by
  obtain ⟨uw, iw, sd, iv, wf⟩ := d
  simp only at h1 h2 h3 h4
  subst h1 h2 h3 h4
  exact scatterAdd_vecDims_apply wf x idx upd v

end Cert.ScatterRows

end
-- ==== Proof.Spec.lean ====
/-
  The specification of one tree-LSTM cell step, entry by entry over the extended reals.

  Nodes are the rows of the arrays (262144 of them), features the 128 columns.  An edge e sends the state of its
  child, row  child e  of the child-state arrays, to its parent; the MAILBOX of node v holds the sum of what the
  edges landing on v sent.  With  hs = mailbox of h  and  cs = mailbox of c  the cell computes, for node R:

    forget pre-activation   F[R, q]  = ((Σ_k te[R,k]·Wf[q,k] + Σ_k h[R,k]·Uf[q,k]) + ufb[q]) + bf[0,q]
    gate pre-activations    P[R, r]  = (Σ_k te[R,k]·Wiou[r,k] + Σ_k hs[R,k]·Uiou[r,k]) + biou[0,r]      (r < 384)
    new cell state          c'[R, q] = σ(P[R,q]) · tanh(P[R,q+256]) + σ(F[R,q]) · cs[R,q]
    new hidden state        h'[R, q] = σ(P[R,q+128]) · tanh(c'[R,q])

  with σ the logistic function.  The column of child rows and the column of parent rows are parameters: a column
  entry is read as a signed integer; a child row is clamped into the array, a parent row outside it receives nothing.
-/
import Idealize.ShloMosaic.PureOps.Ideal
import Idealize.ShloMosaic.Lib.ValueIdx
import proofs.«167092_j29386166239562_2_alg».proof.Proof.LibGatherRows
import proofs.«167092_j29386166239562_2_alg».proof.Proof.LibScatterRows

noncomputable section

open scoped BigOperators

namespace Cert.TreeCell

open Idealize.ShloMosaic Idealize.ShloMosaic.ValueIdx

/-- The mailbox of node v at feature c: the zero word plus the sum, over the edges whose parent is v, of the child's
    row of x at feature c.  Generic in the number of features, so that it also reads an array of two states side by side. -/
def mail {C : ℕ} (sc dc : IVec ⟨2, ![262144, 1]⟩ 32) (x : FVec Ideal ⟨2, ![262144, C]⟩ .f32)
    (v : Fin 262144) (c : Fin C) : EReal :=
  Ideal.ofBits .f32 0x00000000#32
    + ∑ e ∈ Cert.ScatterRows.landing dc v.val, x (ix2 (Cert.GatherRows.rowAt 262144 (by decide) sc e) c)

/-- Column q of the first, second and third block of 128 among 384 columns. -/
abbrev colI (q : Fin 128) : Fin 384 := ⟨q.val, by have := q.isLt; omega⟩
abbrev colO (q : Fin 128) : Fin 384 := ⟨q.val + 128, by have := q.isLt; omega⟩
abbrev colU (q : Fin 128) : Fin 384 := ⟨q.val + 256, by have := q.isLt; omega⟩

/-- The new cell state from the three pre-activations it reads and the mailbox of cell states. -/
def cellC (pi pu f cs : EReal) : EReal := Ideal.logistic pi * Ideal.tanh pu + Ideal.logistic f * cs

/-- The new hidden state from the output gate's pre-activation and the new cell state. -/
def cellH (po cn : EReal) : EReal := Ideal.logistic po * Ideal.tanh cn

section
variable (te h cc : FVec Ideal ⟨2, ![262144, 128]⟩ .f32) (sc dc : IVec ⟨2, ![262144, 1]⟩ 32)
  (Wiou Uiou : FVec Ideal ⟨2, ![384, 128]⟩ .f32) (biou : FVec Ideal ⟨2, ![1, 384]⟩ .f32)
  (Uf : FVec Ideal ⟨2, ![128, 128]⟩ .f32) (ufb : FVec Ideal ⟨1, ![128]⟩ .f32)
  (Wf : FVec Ideal ⟨2, ![128, 128]⟩ .f32) (bf : FVec Ideal ⟨2, ![1, 128]⟩ .f32)

/-- The forget gate's pre-activation of node R at feature q. -/
def forgetPre (R : Fin 262144) (q : Fin 128) : EReal :=
  ((∑ k : Fin 128, te (ix2 R k) * Wf (ix2 q k) + ∑ k : Fin 128, h (ix2 R k) * Uf (ix2 q k)) + ufb (ix1 q))
    + bf (ix2 (0 : Fin 1) q)

/-- The input / output / update gates' pre-activation of node R at column r of 384. -/
def gatesPre (R : Fin 262144) (r : Fin 384) : EReal :=
  (∑ k : Fin 128, te (ix2 R k) * Wiou (ix2 r k) + ∑ k : Fin 128, mail sc dc h R k * Uiou (ix2 r k))
    + biou (ix2 (0 : Fin 1) r)

/-- The new cell state of node R at feature q. -/
def cNewAt (R : Fin 262144) (q : Fin 128) : EReal :=
  cellC (gatesPre te h sc dc Wiou Uiou biou R (colI q)) (gatesPre te h sc dc Wiou Uiou biou R (colU q))
    (forgetPre te h Uf ufb Wf bf R q) (mail sc dc cc R q)

/-- The new hidden state of node R at feature q. -/
def hNewAt (R : Fin 262144) (q : Fin 128) : EReal :=
  cellH (gatesPre te h sc dc Wiou Uiou biou R (colO q)) (cNewAt te h cc sc dc Wiou Uiou biou Uf ufb Wf bf R q)

/-- The new cell states as an array. -/
def cNew : FVec Ideal ⟨2, ![262144, 128]⟩ .f32 := fun i => cNewAt te h cc sc dc Wiou Uiou biou Uf ufb Wf bf (i 0) (i 1)

/-- The new hidden states as an array. -/
def hNew : FVec Ideal ⟨2, ![262144, 128]⟩ .f32 := fun i => hNewAt te h cc sc dc Wiou Uiou biou Uf ufb Wf bf (i 0) (i 1)

end

end Cert.TreeCell

end
-- ==== Proof.LibConcatCols.lean ====
/-
  A reusable lemma: two matrices with the same number of rows laid side by side, read at an entry.

  The concatenation along axis 1 of an [M, a] array and an [M, b] array into an [M, c] array (c = a + b), at (p, j):
  the left piece at (p, j) when j is below a, the right piece at (p, j - a) otherwise. Generic in M, a, b, c and in the
  element type; the column of the piece is passed with its defining equation, so a use site picks its own spelling.
-/
import Idealize.ShloMosaic.Lib.Pipeline.Value
import Idealize.ShloMosaic.Lib.ValueIdx

noncomputable section

namespace Cert.ConcatCols

open Idealize.ShloMosaic Idealize.ShloMosaic.ValueIdx

variable {α : Type} {M a b c : ℕ}

/-- A column in the left piece: the left piece at the same row and the same column. -/
theorem left_apply (x₁ : (⟨2, ![M, a]⟩ : Shape).Idx → α) (x₂ : (⟨2, ![M, b]⟩ : Shape).Idx → α)
    (h : Shape.Concatenates [⟨2, ![M, a]⟩, ⟨2, ![M, b]⟩] ⟨2, ![M, c]⟩ 1)
    (p : Fin M) (j : Fin c) (k : Fin a) (hk : k.val = j.val) :
    concatenate ⟨2, ![M, c]⟩ 1 [⟨⟨2, ![M, a]⟩, x₁⟩, ⟨⟨2, ![M, b]⟩, x₂⟩] h (ix2 p j) = x₁ (ix2 p k) :=
  concatenate_pair_apply_left 1 x₁ x₂ h (ix2 p j) rfl (ix2 p k)
    (fun d => match d with | ⟨0, _⟩ => rfl | ⟨1, _⟩ => hk)

/-- A column past the left piece: the right piece at the same row, the column less the left piece's width. -/
theorem right_apply (x₁ : (⟨2, ![M, a]⟩ : Shape).Idx → α) (x₂ : (⟨2, ![M, b]⟩ : Shape).Idx → α)
    (h : Shape.Concatenates [⟨2, ![M, a]⟩, ⟨2, ![M, b]⟩] ⟨2, ![M, c]⟩ 1)
    (p : Fin M) (j : Fin c) (k : Fin b) (hk : k.val + a = j.val) :
    concatenate ⟨2, ![M, c]⟩ 1 [⟨⟨2, ![M, a]⟩, x₁⟩, ⟨⟨2, ![M, b]⟩, x₂⟩] h (ix2 p j) = x₂ (ix2 p k) :=
  concatenate_pair_apply_right 1 x₁ x₂ h (ix2 p j) rfl rfl (ix2 p k)
    (fun d hd => match d, hd with
      | ⟨0, _⟩, _ => rfl
      | ⟨1, _⟩, hd => absurd rfl hd) hk

/-- Both cases at once (`hc`: the widths add up): the entry comes from the left piece when its column is below the left
    piece's width, from the right piece otherwise. -/
theorem apply_dite (x₁ : (⟨2, ![M, a]⟩ : Shape).Idx → α) (x₂ : (⟨2, ![M, b]⟩ : Shape).Idx → α)
    (h : Shape.Concatenates [⟨2, ![M, a]⟩, ⟨2, ![M, b]⟩] ⟨2, ![M, c]⟩ 1) (hc : c = a + b)
    (p : Fin M) (j : Fin c) :
    concatenate ⟨2, ![M, c]⟩ 1 [⟨⟨2, ![M, a]⟩, x₁⟩, ⟨⟨2, ![M, b]⟩, x₂⟩] h (ix2 p j)
      = if hj : j.val < a then x₁ (ix2 p ⟨j.val, hj⟩)
        else x₂ (ix2 p ⟨j.val - a, by have := j.isLt; omega⟩) := by
  by_cases hj : j.val < a
  · rw [dif_pos hj]
    exact left_apply x₁ x₂ h p j ⟨j.val, hj⟩ rfl
  · rw [dif_neg hj]
    exact right_apply x₁ x₂ h p j ⟨j.val - a, by have := j.isLt; omega⟩ (by show j.val - a + a = j.val; omega)

end Cert.ConcatCols

end
-- ==== Proof.Mailbox.lean ====
/-
  The mailbox sum as the host computes it: a gather of the children's rows followed by a scatter-add of those rows
  into an array of zeros at the parents' rows, read at an entry; and the mailbox of two state arrays laid side by
  side, which is the two mailboxes side by side.
-/
import Idealize.ShloMosaic.Lib.Pipeline.Value
import proofs.«167092_j29386166239562_2_alg».proof.Proof.Spec
import proofs.«167092_j29386166239562_2_alg».proof.Proof.LibConcatCols

noncomputable section

open scoped BigOperators

namespace Cert.TreeCell

open Idealize.ShloMosaic Idealize.ShloMosaic.ValueIdx

/-- Rows gathered at the child column, then scatter-added at the parent column into an array whose entries are all the
    zero word: entry (v, j) is the mailbox of node v at feature j.  For any records with the dimension numbers of a
    gather of whole rows and of a scatter-add of whole rows. -/
theorem scatter_gather_apply {C : ℕ}
    (dS : ScatterDims ⟨2, ![262144, C]⟩ ⟨2, ![262144, 1]⟩ ⟨2, ![262144, C]⟩)
    (s1 : dS.updateWindowDims = [1]) (s2 : dS.insertedWindowDims = [0]) (s3 : dS.scatterDimsToOperandDims = [0])
    (s4 : dS.indexVectorDim = 1)
    (dG : GatherDims ⟨2, ![262144, C]⟩ ⟨2, ![262144, 1]⟩ ⟨2, ![262144, C]⟩)
    (g1 : dG.offsetDims = [1]) (g2 : dG.collapsedSliceDims = [0]) (g3 : dG.operandBatchingDims = [])
    (g4 : dG.startIndicesBatchingDims = []) (g5 : dG.startIndexMap = [0]) (g6 : dG.indexVectorDim = 1)
    (g7 : dG.sliceSizes = ![1, C])
    (z : FVec Ideal ⟨2, ![262144, C]⟩ .f32) (hz : ∀ i, z i = Ideal.ofBits .f32 0x00000000#32)
    (x : FVec Ideal ⟨2, ![262144, C]⟩ .f32) (sc dc : IVec ⟨2, ![262144, 1]⟩ 32) (v : Fin 262144) (j : Fin C) :
    Host.scatterAdd dS z dc (Host.gather dG x sc) (ix2 v j) = mail sc dc x v j := by
  refine (Cert.ScatterRows.scatterAdd_rows_apply dS s1 s2 s3 s4 z dc (Host.gather dG x sc) v j).trans ?_
  show z (ix2 v j) + _ = Ideal.ofBits .f32 0x00000000#32 + _
  rw [hz]
  refine congrArg (Ideal.ofBits .f32 0x00000000#32 + ·) ?_
  refine Finset.sum_congr rfl fun e _ => ?_
  exact Cert.GatherRows.gather_rows_apply (by decide) dG g1 g2 g3 g4 g5 g6 g7 x sc e j

/-- The mailbox of two state arrays side by side, at a column of the left one, is the left array's mailbox. -/
theorem mail_concat_left (sc dc : IVec ⟨2, ![262144, 1]⟩ 32) (x₁ x₂ : FVec Ideal ⟨2, ![262144, 128]⟩ .f32)
    (hc : Shape.Concatenates [⟨2, ![262144, 128]⟩, ⟨2, ![262144, 128]⟩] ⟨2, ![262144, 256]⟩ 1)
    (v : Fin 262144) (j : Fin 256) (k : Fin 128) (hk : k.val = j.val) :
    mail sc dc (concatenate ⟨2, ![262144, 256]⟩ 1 [⟨⟨2, ![262144, 128]⟩, x₁⟩, ⟨⟨2, ![262144, 128]⟩, x₂⟩] hc) v j
      = mail sc dc x₁ v k := by
  show Ideal.ofBits .f32 0x00000000#32 + _ = Ideal.ofBits .f32 0x00000000#32 + _
  refine congrArg (Ideal.ofBits .f32 0x00000000#32 + ·) ?_
  refine Finset.sum_congr rfl fun e _ => ?_
  exact Cert.ConcatCols.left_apply x₁ x₂ hc _ j k hk

/-- … and at a column of the right one, the right array's mailbox at that column less 128. -/
theorem mail_concat_right (sc dc : IVec ⟨2, ![262144, 1]⟩ 32) (x₁ x₂ : FVec Ideal ⟨2, ![262144, 128]⟩ .f32)
    (hc : Shape.Concatenates [⟨2, ![262144, 128]⟩, ⟨2, ![262144, 128]⟩] ⟨2, ![262144, 256]⟩ 1)
    (v : Fin 262144) (j : Fin 256) (k : Fin 128) (hk : k.val + 128 = j.val) :
    mail sc dc (concatenate ⟨2, ![262144, 256]⟩ 1 [⟨⟨2, ![262144, 128]⟩, x₁⟩, ⟨⟨2, ![262144, 128]⟩, x₂⟩] hc) v j
      = mail sc dc x₂ v k := by
  show Ideal.ofBits .f32 0x00000000#32 + _ = Ideal.ofBits .f32 0x00000000#32 + _
  refine congrArg (Ideal.ofBits .f32 0x00000000#32 + ·) ?_
  refine Finset.sum_congr rfl fun e _ => ?_
  exact Cert.ConcatCols.right_apply x₁ x₂ hc _ j k hk

end Cert.TreeCell

end
-- ==== Proof.LibLogistic.lean ====
/-
  A reusable lemma: the logistic function written two ways, on the extended reals, and the f32 words of 0, 1 and 0.5.

  One program computes the logistic function as 1 / (1 + e^(-v)); the other as 1/2 · tanh (v/2) + 1/2.  Over the
  reals these are one function: with a = e^(v/2),  tanh (v/2) = (a - 1/a) / (a + 1/a),  so
  1/2 · tanh (v/2) + 1/2 = a / (a + 1/a) = 1 / (1 + 1/a²) = 1 / (1 + e^(-v)).
  Over the extended reals the identity survives at both infinities: at -∞ both sides are 0 (tanh (-∞) = -1,
  e^(+∞) = +∞, 1/∞ = 0) and at +∞ both are 1.  So the identity needs no finiteness of v.
-/
import Idealize.ShloMosaic.PureOps.Ideal

noncomputable section

namespace Cert.Logistic

open Idealize.ShloMosaic

/-- The word of +0.0 denotes 0. -/
theorem ofBits_zero : Ideal.ofBits .f32 0x00000000#32 = 0 := by
  simp [Ideal.ofBits, Ideal.ieee]

/-- The word of 1.0 denotes 1. -/
theorem ofBits_one : Ideal.ofBits .f32 0x3F800000#32 = 1 := by
  simp [Ideal.ofBits, Ideal.ieee, -EReal.coe_mul]; norm_num

/-- The word of 0.5 denotes the real 1/2. -/
theorem ofBits_half : Ideal.ofBits .f32 0x3F000000#32 = ((1 / 2 : ℝ) : EReal) := by
  simp [Ideal.ofBits, Ideal.ieee, -EReal.coe_mul]; norm_num

/-- The quotient 1 / (1 + e^(-v)) with the literal 1.0 in both places is the logistic function. -/
theorem one_div_one_add_exp_neg (v : EReal) :
    Ideal.div (Ideal.ofBits .f32 0x3F800000#32) (Ideal.ofBits .f32 0x3F800000#32 + Ideal.exp (-v)) = Ideal.logistic v := by
  rw [ofBits_one]; rfl

/-- Over the reals: 1/2 · tanh (r/2) + 1/2 = 1 / (1 + e^(-r)). -/
theorem real_half_tanh (r : ℝ) : (1 / 2 : ℝ) * Real.tanh ((1 / 2) * r) + 1 / 2 = (1 + Real.exp (-r))⁻¹ := by
  have hp : 0 < Real.exp (1 / 2 * r) := Real.exp_pos _
  have hn : Real.exp (-(1 / 2 * r)) = (Real.exp (1 / 2 * r))⁻¹ := Real.exp_neg _
  have h1 : Real.exp (-r) = (Real.exp (1 / 2 * r))⁻¹ * (Real.exp (1 / 2 * r))⁻¹ := by
    rw [← hn, ← Real.exp_add]; congr 1; ring
  rw [Real.tanh_eq_sinh_div_cosh, Real.sinh_eq, Real.cosh_eq, hn, h1]
  field_simp
  ring

/-- Over the extended reals, with the literal 0.5 in all three places: 0.5 · tanh (0.5 · v) + 0.5 is the logistic
    function of v, infinities included. -/
theorem half_tanh_half (v : EReal) :
    Ideal.ofBits .f32 0x3F000000#32 * Ideal.tanh (Ideal.ofBits .f32 0x3F000000#32 * v) + Ideal.ofBits .f32 0x3F000000#32
      = Ideal.logistic v := by
  rw [ofBits_half]
  have hneg : (-1 : EReal) = ((-1 : ℝ) : EReal) := by norm_num
  have hone : (1 : EReal) = ((1 : ℝ) : EReal) := rfl
  induction v using EReal.rec with
  | bot =>
    rw [EReal.coe_mul_bot_of_pos (by norm_num), Ideal.tanh_bot, Ideal.logistic_bot, hneg, ← EReal.coe_mul, ← EReal.coe_add]
    norm_num
  | coe r =>
    rw [← EReal.coe_mul, Ideal.tanh_coe, ← EReal.coe_mul, ← EReal.coe_add, Ideal.logistic_coe, real_half_tanh]
  | top =>
    rw [EReal.coe_mul_top_of_pos (by norm_num), Ideal.tanh_top, Ideal.logistic_top, hone, ← EReal.coe_mul, ← EReal.coe_add]
    norm_num

end Cert.Logistic

end
-- ==== Proof.Reference.lean ====
/-
  The reference program computes the specification: its last two stages, read entry by entry, are the new hidden
  state and the new cell state of Spec.lean.

  The reference forms the two mailboxes separately (two gathers, two scatter-adds, with the same two index columns),
  multiplies by each weight matrix transposed, and writes the logistic function as 1 / (1 + e^(-v)) with the literal
  1.0 — which is the logistic function on every extended real.
-/
import proofs.«167092_j29386166239562_2_alg».proof.Proof.Gen.ReferenceIdeal.Read
import proofs.«167092_j29386166239562_2_alg».proof.Proof.Mailbox
import proofs.«167092_j29386166239562_2_alg».proof.Proof.LibLogistic

noncomputable section

open scoped BigOperators

namespace Cert.TreeCell.Ref

open Cert.ReferenceIdeal Cert.ReferenceIdeal.Read Cert.TreeCell Idealize.ShloMosaic Idealize.ShloMosaic.ValueIdx

/-- two indices of a rank-2 shape with the same coordinates are equal -/
local macro "idx2" : tactic =>
  `(tactic| exact funext fun a => Fin.ext (by match a with | ⟨0, _⟩ => rfl | ⟨1, _⟩ => rfl))

/-- The host's 1 / (1 + e^(-y)), with the word of 1.0 twice, is the logistic function of y. -/
theorem host_logistic (y : Ideal .f32) :
    FloatOps.hostDivf (F := Ideal) (φ := .f32) (FloatOps.ofBits .f32 0x3F800000#32)
      (FloatOps.addf (FloatOps.ofBits .f32 0x3F800000#32) (FloatOps.hostUnary .exp (FloatOps.hostNegf y)))
      = Ideal.logistic y :=
  Cert.Logistic.one_div_one_add_exp_neg y

section
variable (x0 x1 x2 : (⟨S262144x128, .f32⟩ : BufTy).Contents (Elt Ideal))
  (x3 x4 : (⟨S262144, .i32⟩ : BufTy).Contents (Elt Ideal))
  (x5 x6 : (⟨S384x128, .f32⟩ : BufTy).Contents (Elt Ideal)) (x7 : (⟨S1x384, .f32⟩ : BufTy).Contents (Elt Ideal))
  (x8 : (⟨S128x128, .f32⟩ : BufTy).Contents (Elt Ideal)) (x9 : (⟨S128, .f32⟩ : BufTy).Contents (Elt Ideal))
  (x10 : (⟨S128x128, .f32⟩ : BufTy).Contents (Elt Ideal)) (x11 : (⟨S1x128, .f32⟩ : BufTy).Contents (Elt Ideal))

/-- The summed hidden states are the mailbox of h. -/
theorem mail_h (R : Fin 262144) (k : Fin 128) :
    val_main_v9 (F := Ideal) x1 x3 x4 (ix2 R k) = mail (val_main_v5 (F := Ideal) x3) (val_main_v8 (F := Ideal) x4) x1 R k :=
  scatter_gather_apply scatter_S262144x128_S262144x1_S262144x128_1_0_0_1 rfl rfl rfl rfl
    gather_S262144x128_S262144x1_S262144x128_1_0_n_n_0_1_1128 rfl rfl rfl rfl rfl rfl rfl
    (val_main_v7 (F := Ideal)) (fun i => (val_main_v7_apply i).trans rfl) x1
    (val_main_v5 (F := Ideal) x3) (val_main_v8 (F := Ideal) x4) R k

/-- The summed cell states are the mailbox of c: the second pair of index columns is the first pair again. -/
theorem mail_c (R : Fin 262144) (q : Fin 128) :
    val_main_v19 (F := Ideal) x2 x3 x4 (ix2 R q) = mail (val_main_v5 (F := Ideal) x3) (val_main_v8 (F := Ideal) x4) x2 R q := by
  have e15 : val_main_v15 (F := Ideal) x3 = val_main_v5 (F := Ideal) x3 := rfl
  have e18 : val_main_v18 (F := Ideal) x4 = val_main_v8 (F := Ideal) x4 := rfl
  rw [← e15, ← e18]
  exact scatter_gather_apply scatter_S262144x128_S262144x1_S262144x128_1_0_0_1 rfl rfl rfl rfl
    gather_S262144x128_S262144x1_S262144x128_1_0_n_n_0_1_1128 rfl rfl rfl rfl rfl rfl rfl
    (val_main_v17 (F := Ideal)) (fun i => (val_main_v17_apply i).trans rfl) x2
    (val_main_v15 (F := Ideal) x3) (val_main_v18 (F := Ideal) x4) R q

/-- The forget gate's pre-activation. -/
theorem forget_pre (R : Fin 262144) (q : Fin 128) :
    val_main_v29 (F := Ideal) x0 x1 x8 x9 x10 x11 (ix2 R q) = forgetPre x0 x1 x8 x9 x10 x11 R q := by
  have l21 : ∀ k : Fin 128, lidx_main_v21 (ix2 R q) k = ix2 R k := fun k => by idx2
  have r21 : ∀ k : Fin 128, idx_main_v20 (ridx_main_v21 (ix2 R q) k) = ix2 q k := fun k => by idx2
  have l23 : ∀ k : Fin 128, lidx_main_v23 (ix2 R q) k = ix2 R k := fun k => by idx2
  have r23 : ∀ k : Fin 128, idx_main_v22 (ridx_main_v23 (ix2 R q) k) = ix2 q k := fun k => by idx2
  have i26 : idx_main_v25 (idx_main_v26 (ix2 R q)) = ix1 q :=
    funext fun a => Fin.ext (by match a with | ⟨0, _⟩ => rfl)
  have i28 : idx_main_v28 (ix2 R q) = ix2 (0 : Fin 1) q := by idx2
  rw [val_main_v29_apply, val_main_v27_apply, val_main_v24_apply, val_main_v21_apply, val_main_v23_apply,
    val_main_v26_apply, val_main_v25_apply, val_main_v28_apply]
  simp only [val_main_v20_apply, val_main_v22_apply, l21, r21, l23, r23, i26, i28]
  rfl

/-- The forget gate. -/
theorem forget_gate (R : Fin 262144) (q : Fin 128) :
    val_main_v35 (F := Ideal) x0 x1 x8 x9 x10 x11 (ix2 R q) = Ideal.logistic (forgetPre x0 x1 x8 x9 x10 x11 R q) := by
  rw [val_main_v35_apply, val_main_v34_apply, val_main_cst_5_apply, val_main_v33_apply, val_main_v32_apply,
    val_main_cst_4_apply, val_main_v31_apply, val_main_v30_apply, host_logistic, forget_pre]

/-- The three other gates' pre-activations. -/
theorem gates_pre (R : Fin 262144) (r : Fin 384) :
    val_main_v43 (F := Ideal) x0 x1 x3 x4 x5 x6 x7 (ix2 R r)
      = gatesPre x0 x1 (val_main_v5 (F := Ideal) x3) (val_main_v8 (F := Ideal) x4) x5 x6 x7 R r := by
  have l38 : ∀ k : Fin 128, lidx_main_v38 (ix2 R r) k = ix2 R k := fun k => by idx2
  have r38 : ∀ k : Fin 128, idx_main_v37 (ridx_main_v38 (ix2 R r) k) = ix2 r k := fun k => by idx2
  have l40 : ∀ k : Fin 128, lidx_main_v40 (ix2 R r) k = ix2 R k := fun k => by idx2
  have r40 : ∀ k : Fin 128, idx_main_v39 (ridx_main_v40 (ix2 R r) k) = ix2 r k := fun k => by idx2
  have i42 : idx_main_v42 (ix2 R r) = ix2 (0 : Fin 1) r := by idx2
  rw [val_main_v43_apply, val_main_v41_apply, val_main_v38_apply, val_main_v40_apply, val_main_v42_apply]
  simp only [val_main_v37_apply, val_main_v39_apply, l38, r38, l40, r40, i42, mail_h]
  rfl

/-- The input gate. -/
theorem input_gate (R : Fin 262144) (q : Fin 128) :
    val_main_v52 (F := Ideal) x0 x1 x3 x4 x5 x6 x7 (ix2 R q)
      = Ideal.logistic (gatesPre x0 x1 (val_main_v5 (F := Ideal) x3) (val_main_v8 (F := Ideal) x4) x5 x6 x7 R (colI q)) := by
  have i44 : idx_main_v44 (ix2 R q) = ix2 R (colI q) := by idx2
  rw [val_main_v52_apply, val_main_v51_apply, val_main_cst_7_apply, val_main_v50_apply, val_main_v49_apply,
    val_main_cst_6_apply, val_main_v48_apply, val_main_v47_apply, host_logistic, val_main_v44_apply, i44, gates_pre]

/-- The output gate. -/
theorem output_gate (R : Fin 262144) (q : Fin 128) :
    val_main_v61 (F := Ideal) x0 x1 x3 x4 x5 x6 x7 (ix2 R q)
      = Ideal.logistic (gatesPre x0 x1 (val_main_v5 (F := Ideal) x3) (val_main_v8 (F := Ideal) x4) x5 x6 x7 R (colO q)) := by
  have i45 : idx_main_v45 (ix2 R q) = ix2 R (colO q) :=
    funext fun a => Fin.ext (by match a with | ⟨0, _⟩ => rfl | ⟨1, _⟩ => exact Nat.add_comm 128 q.val)
  rw [val_main_v61_apply, val_main_v60_apply, val_main_cst_9_apply, val_main_v59_apply, val_main_v58_apply,
    val_main_cst_8_apply, val_main_v57_apply, val_main_v56_apply, host_logistic, val_main_v45_apply, i45, gates_pre]

/-- The update candidate. -/
theorem update_tanh (R : Fin 262144) (q : Fin 128) :
    val_main_v53 (F := Ideal) x0 x1 x3 x4 x5 x6 x7 (ix2 R q)
      = Ideal.tanh (gatesPre x0 x1 (val_main_v5 (F := Ideal) x3) (val_main_v8 (F := Ideal) x4) x5 x6 x7 R (colU q)) := by
  have i46 : idx_main_v46 (ix2 R q) = ix2 R (colU q) :=
    funext fun a => Fin.ext (by match a with | ⟨0, _⟩ => rfl | ⟨1, _⟩ => exact Nat.add_comm 256 q.val)
  rw [val_main_v53_apply, val_main_v46_apply, i46, gates_pre]
  rfl

/-- THE NEW CELL STATES: the reference's second result is the specification's. -/
theorem cell_eq :
    val_main_v55 (F := Ideal) x0 x1 x2 x3 x4 x5 x6 x7 x8 x9 x10 x11
      = cNew x0 x1 x2 (val_main_v5 (F := Ideal) x3) (val_main_v8 (F := Ideal) x4) x5 x6 x7 x8 x9 x10 x11 := by
  funext i
  obtain ⟨R, q, rfl⟩ : ∃ (R : Fin 262144) (q : Fin 128), i = ix2 R q := ⟨i 0, i 1, eq_ix2 i⟩
  rw [val_main_v55_apply, val_main_v54_apply, val_main_v36_apply, input_gate, update_tanh, forget_gate, mail_c]
  rfl

/-- THE NEW HIDDEN STATES: the reference's first result is the specification's. -/
theorem hidden_eq :
    val_main_v63 (F := Ideal) x0 x1 x2 x3 x4 x5 x6 x7 x8 x9 x10 x11
      = hNew x0 x1 x2 (val_main_v5 (F := Ideal) x3) (val_main_v8 (F := Ideal) x4) x5 x6 x7 x8 x9 x10 x11 := by
  funext i
  obtain ⟨R, q, rfl⟩ : ∃ (R : Fin 262144) (q : Fin 128), i = ix2 R q := ⟨i 0, i 1, eq_ix2 i⟩
  rw [val_main_v63_apply, val_main_v62_apply, output_gate, cell_eq]
  rfl

end

end Cert.TreeCell.Ref

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.Block.lean ====
/-
  One block of 2048 nodes inside the kernel body, read at an entry over the extended reals.

  The body multiplies the block of token embeddings by ONE merged weight matrix of 512 columns (columns 0…127 serve
  the forget gate, columns 128…511 the three other gates), the block of hidden states by the forget gate's own matrix,
  and the left half of the block of mailboxes (the summed hidden states) by the gates' matrix; the right half of the
  block of mailboxes (the summed cell states) multiplies the forget gate.  A change of float format is the identity
  here, a product accumulated into zeros is the plain sum over the 128 contracted features.
-/
import proofs.«167092_j29386166239562_2_alg».proof.Proof.Gen.KernelIdeal.Value
import proofs.«167092_j29386166239562_2_alg».proof.Proof.LibMatmulNN
import proofs.«167092_j29386166239562_2_alg».proof.Proof.Spec
import Idealize.ShloMosaic.Lib.ValueLayout
import Idealize.ShloMosaic.Lib.Pipeline.Value

noncomputable section

open scoped BigOperators

namespace Cert.TreeCell

open Cert.KernelIdeal Cert.KernelIdeal.Gen Idealize.ShloMosaic Idealize.ShloMosaic.ValueIdx

/-- Column q of the forget gate's part of the merged weights, and column r of the other gates' part. -/
abbrev mergedF (q : Fin 128) : Fin 512 := ⟨q.val, by have := q.isLt; omega⟩
abbrev mergedG (r : Fin 384) : Fin 512 := ⟨r.val + 128, by have := r.isLt; omega⟩
/-- Column k of the summed hidden states, and column q of the summed cell states, in the block of mailboxes. -/
abbrev boxH (k : Fin 128) : Fin 256 := ⟨k.val, by have := k.isLt; omega⟩
abbrev boxC (q : Fin 128) : Fin 256 := ⟨q.val + 128, by have := q.isLt; omega⟩

section
variable (X Hb : FVec Ideal S2048x128 .f32) (S : FVec Ideal S2048x256 .f32) (Wc : FVec Ideal S128x512 .bf16)
  (Ui : FVec Ideal S128x384 .bf16) (bi : FVec Ideal S1x384 .f32) (Uf : FVec Ideal S128x128 .bf16)
  (b1 b2 : FVec Ideal S1x128 .f32)

/-- The gates' pre-activation of the block's row p at column r. -/
def gatesB (p : Fin 2048) (r : Fin 384) : EReal :=
  (∑ k : Fin 128, X (ix2 p k) * Wc (ix2 k (mergedG r)) + ∑ k : Fin 128, S (ix2 p (boxH k)) * Ui (ix2 k r))
    + bi (ix2 (0 : Fin 1) r)

/-- The forget gate's pre-activation of the block's row p at feature q. -/
def forgetB (p : Fin 2048) (q : Fin 128) : EReal :=
  ((∑ k : Fin 128, X (ix2 p k) * Wc (ix2 k (mergedF q)) + ∑ k : Fin 128, Hb (ix2 p k) * Uf (ix2 k q))
    + b1 (ix2 (0 : Fin 1) q)) + b2 (ix2 (0 : Fin 1) q)

/-- The product of the embeddings with the merged weights. -/
theorem merged_apply (p : Fin 2048) (j : Fin 512) :
    k0_pay4 (F := Ideal) X Wc (ix2 p j) = ∑ k : Fin 128, X (ix2 p k) * Wc (ix2 k j) := by
  refine (Cert.MatmulNN.matmul_zero_apply dot_S2048x128_S128x512_S2048x512_1_0_0_1_n_n rfl none
    (truncf .bf16 X bitsLt_bf16_f32) (shapeCast S128x512 Wc shapeCasts_S128x512_S128x512) p j).trans ?_
  refine Finset.sum_congr rfl fun k _ => ?_
  rw [shapeCast_self]
  rfl

/-- The gates' pre-activations the body computes. -/
theorem gates_block_apply (p : Fin 2048) (r : Fin 384) :
    k0_pay6 (F := Ideal) X S Wc Ui bi (ix2 p r) = gatesB X S Wc Ui bi p r := by
  have e1 : extractStridedSlice S2048x384 ![0, 128] (k0_pay4 (F := Ideal) X Wc) slices_S2048x512_o0_128_S2048x384 (ix2 p r)
      = ∑ k : Fin 128, X (ix2 p k) * Wc (ix2 k (mergedG r)) :=
    (slice2_axis1_apply 128 (k0_pay4 (F := Ideal) X Wc) slices_S2048x512_o0_128_S2048x384 p r (mergedG r)
      (by show r.val + 128 = 128 + r.val; omega)).trans (merged_apply X Wc p (mergedG r))
  have e2 : FloatOps.matmul dot_S2048x128_S128x384_S2048x384_1_0_0_1_n_n none
        (truncf .bf16 (extractStridedSlice S2048x128 ![0, 0] (k0_pay3 (F := Ideal) S) slices_S2048x256_o0_0_S2048x128) bitsLt_bf16_f32)
        (shapeCast S128x384 Ui shapeCasts_S128x384_S128x384) (constant S2048x384 .f32 0x00000000#32) (ix2 p r)
      = ∑ k : Fin 128, S (ix2 p (boxH k)) * Ui (ix2 k r) := by
    refine (Cert.MatmulNN.matmul_zero_apply dot_S2048x128_S128x384_S2048x384_1_0_0_1_n_n rfl none _ _ p r).trans ?_
    refine Finset.sum_congr rfl fun k _ => ?_
    rw [shapeCast_self]
    refine congrArg (· * Ui (ix2 k r)) ?_
    show extractStridedSlice S2048x128 ![0, 0] (k0_pay3 (F := Ideal) S) slices_S2048x256_o0_0_S2048x128 (ix2 p k) = S (ix2 p (boxH k))
    refine (slice2_axis1_apply 0 (k0_pay3 (F := Ideal) S) slices_S2048x256_o0_0_S2048x128 p k (boxH k)
      (by show k.val = 0 + k.val; omega)).trans ?_
    show shapeCast S2048x256 S shapeCasts_S2048x256_S2048x256 (ix2 p (boxH k)) = _
    rw [shapeCast_self]
  have e3 : broadcastTo S2048x384 bi broadcasts_S1x384_S2048x384 (ix2 p r) = bi (ix2 (0 : Fin 1) r) :=
    broadcastTo_1b_ab_apply bi broadcasts_S1x384_S2048x384 p r
  show (extractStridedSlice S2048x384 ![0, 128] (k0_pay4 (F := Ideal) X Wc) slices_S2048x512_o0_128_S2048x384 (ix2 p r)
      + FloatOps.matmul dot_S2048x128_S128x384_S2048x384_1_0_0_1_n_n none
        (truncf .bf16 (extractStridedSlice S2048x128 ![0, 0] (k0_pay3 (F := Ideal) S) slices_S2048x256_o0_0_S2048x128) bitsLt_bf16_f32)
        (shapeCast S128x384 Ui shapeCasts_S128x384_S128x384) (constant S2048x384 .f32 0x00000000#32) (ix2 p r))
      + broadcastTo S2048x384 bi broadcasts_S1x384_S2048x384 (ix2 p r) = _
  rw [e1, e2, e3]
  rfl

/-- The forget gate times the summed cell states, as the body computes it. -/
theorem forget_block_apply (p : Fin 2048) (q : Fin 128) :
    k0_pay5 (F := Ideal) X Hb S Wc Uf b1 b2 (ix2 p q)
      = Ideal.logistic (forgetB X Hb Wc Uf b1 b2 p q) * S (ix2 p (boxC q)) := by
  have e1 : extractStridedSlice S2048x128 ![0, 0] (k0_pay4 (F := Ideal) X Wc) slices_S2048x512_o0_0_S2048x128 (ix2 p q)
      = ∑ k : Fin 128, X (ix2 p k) * Wc (ix2 k (mergedF q)) :=
    (slice2_axis1_apply 0 (k0_pay4 (F := Ideal) X Wc) slices_S2048x512_o0_0_S2048x128 p q (mergedF q)
      (by show q.val = 0 + q.val; omega)).trans (merged_apply X Wc p (mergedF q))
  have e2 : FloatOps.matmul dot_S2048x128_S128x128_S2048x128_1_0_0_1_n_n none
        (truncf .bf16 Hb bitsLt_bf16_f32) (shapeCast S128x128 Uf shapeCasts_S128x128_S128x128)
        (constant S2048x128 .f32 0x00000000#32) (ix2 p q)
      = ∑ k : Fin 128, Hb (ix2 p k) * Uf (ix2 k q) := by
    refine (Cert.MatmulNN.matmul_zero_apply dot_S2048x128_S128x128_S2048x128_1_0_0_1_n_n rfl none _ _ p q).trans ?_
    refine Finset.sum_congr rfl fun k _ => ?_
    rw [shapeCast_self]
    rfl
  have e3 : broadcastTo S2048x128 (shapeCast S1x128 b1 shapeCasts_S1x128_S1x128) broadcasts_S1x128_S2048x128 (ix2 p q)
      = b1 (ix2 (0 : Fin 1) q) := by
    rw [shapeCast_self]
    exact broadcastTo_1b_ab_apply b1 broadcasts_S1x128_S2048x128 p q
  have e4 : broadcastTo S2048x128 b2 broadcasts_S1x128_S2048x128 (ix2 p q) = b2 (ix2 (0 : Fin 1) q) :=
    broadcastTo_1b_ab_apply b2 broadcasts_S1x128_S2048x128 p q
  have e5 : extractStridedSlice S2048x128 ![0, 128] (k0_pay3 (F := Ideal) S) slices_S2048x256_o0_128_S2048x128 (ix2 p q)
      = S (ix2 p (boxC q)) := by
    refine (slice2_axis1_apply 128 (k0_pay3 (F := Ideal) S) slices_S2048x256_o0_128_S2048x128 p q (boxC q)
      (by show q.val + 128 = 128 + q.val; omega)).trans ?_
    show shapeCast S2048x256 S shapeCasts_S2048x256_S2048x256 (ix2 p (boxC q)) = _
    rw [shapeCast_self]
  show Ideal.logistic (((extractStridedSlice S2048x128 ![0, 0] (k0_pay4 (F := Ideal) X Wc) slices_S2048x512_o0_0_S2048x128 (ix2 p q)
        + FloatOps.matmul dot_S2048x128_S128x128_S2048x128_1_0_0_1_n_n none
            (truncf .bf16 Hb bitsLt_bf16_f32) (shapeCast S128x128 Uf shapeCasts_S128x128_S128x128)
            (constant S2048x128 .f32 0x00000000#32) (ix2 p q))
        + broadcastTo S2048x128 (shapeCast S1x128 b1 shapeCasts_S1x128_S1x128) broadcasts_S1x128_S2048x128 (ix2 p q))
        + broadcastTo S2048x128 b2 broadcasts_S1x128_S2048x128 (ix2 p q))
      * extractStridedSlice S2048x128 ![0, 128] (k0_pay3 (F := Ideal) S) slices_S2048x256_o0_128_S2048x128 (ix2 p q) = _
  rw [e1, e2, e3, e4, e5]
  rfl

/-- The block of new cell states the body stores, at row p and feature q. -/
theorem cell_block_apply (p : Fin 2048) (q : Fin 128) :
    Cert.KernelIdeal.Value.E10 (F := Ideal) X S Wc Ui bi Hb Uf b1 b2 (ix2 p q)
      = cellC (gatesB X S Wc Ui bi p (colI q)) (gatesB X S Wc Ui bi p (colU q))
          (forgetB X Hb Wc Uf b1 b2 p q) (S (ix2 p (boxC q))) := by
  have i0 : Cert.KernelIdeal.Value.ix10_0 (ix2 p q) = ix2 p (colI q) :=
    funext fun a => Fin.ext (by match a with | ⟨0, _⟩ => rfl | ⟨1, _⟩ => rfl)
  have i1 : Cert.KernelIdeal.Value.ix10_1 (ix2 p q) = ix2 p (colU q) :=
    funext fun a => Fin.ext (by match a with | ⟨0, _⟩ => rfl | ⟨1, _⟩ => rfl)
  have i2 : Cert.KernelIdeal.Value.ix10_2 (ix2 p q) = ix2 p q :=
    funext fun a => Fin.ext (by match a with | ⟨0, _⟩ => rfl | ⟨1, _⟩ => rfl)
  show Ideal.logistic (k0_pay6 (F := Ideal) X S Wc Ui bi (Cert.KernelIdeal.Value.ix10_0 (ix2 p q)))
        * Ideal.tanh (k0_pay6 (F := Ideal) X S Wc Ui bi (Cert.KernelIdeal.Value.ix10_1 (ix2 p q)))
      + k0_pay5 (F := Ideal) X Hb S Wc Uf b1 b2 (Cert.KernelIdeal.Value.ix10_2 (ix2 p q)) = _
  rw [i0, i1, i2, gates_block_apply, gates_block_apply, forget_block_apply]
  rfl

/-- The block of new hidden states the body stores, at row p and feature q. -/
theorem hidden_block_apply (p : Fin 2048) (q : Fin 128) :
    Cert.KernelIdeal.Value.E9 (F := Ideal) X S Wc Ui bi Hb Uf b1 b2 (ix2 p q)
      = cellH (gatesB X S Wc Ui bi p (colO q))
          (cellC (gatesB X S Wc Ui bi p (colI q)) (gatesB X S Wc Ui bi p (colU q))
            (forgetB X Hb Wc Uf b1 b2 p q) (S (ix2 p (boxC q)))) := by
  have i0 : Cert.KernelIdeal.Value.ix9_0 (ix2 p q) = ix2 p (colO q) :=
    funext fun a => Fin.ext (by match a with | ⟨0, _⟩ => rfl | ⟨1, _⟩ => rfl)
  have i1 : Cert.KernelIdeal.Value.ix9_1 (ix2 p q) = ix2 p (colI q) :=
    funext fun a => Fin.ext (by match a with | ⟨0, _⟩ => rfl | ⟨1, _⟩ => rfl)
  have i2 : Cert.KernelIdeal.Value.ix9_2 (ix2 p q) = ix2 p (colU q) :=
    funext fun a => Fin.ext (by match a with | ⟨0, _⟩ => rfl | ⟨1, _⟩ => rfl)
  have i3 : Cert.KernelIdeal.Value.ix9_3 (ix2 p q) = ix2 p q :=
    funext fun a => Fin.ext (by match a with | ⟨0, _⟩ => rfl | ⟨1, _⟩ => rfl)
  show Ideal.logistic (k0_pay6 (F := Ideal) X S Wc Ui bi (Cert.KernelIdeal.Value.ix9_0 (ix2 p q)))
        * Ideal.tanh (Ideal.logistic (k0_pay6 (F := Ideal) X S Wc Ui bi (Cert.KernelIdeal.Value.ix9_1 (ix2 p q)))
            * Ideal.tanh (k0_pay6 (F := Ideal) X S Wc Ui bi (Cert.KernelIdeal.Value.ix9_2 (ix2 p q)))
          + k0_pay5 (F := Ideal) X Hb S Wc Uf b1 b2 (Cert.KernelIdeal.Value.ix9_3 (ix2 p q))) = _
  rw [i0, i1, i2, i3, gates_block_apply, gates_block_apply, gates_block_apply, forget_block_apply]
  rfl

end

end Cert.TreeCell

end
-- ==== Proof.Transfer.lean ====
/-
  From one block to the whole arrays: when the block's row p is node R of the arrays — the block of embeddings and of
  hidden states hold row R, the block of mailboxes holds the two mailboxes of node R side by side — and the weight
  blocks hold the weight matrices transposed (the forget gate's and the other gates' input weights merged into one),
  the block's entry is the specification's entry of node R.  Each hypothesis is one such reading; the conclusion only
  substitutes them into the sums.
-/
import proofs.«167092_j29386166239562_2_alg».proof.Proof.Block

noncomputable section

open scoped BigOperators

namespace Cert.TreeCell

open Cert.KernelIdeal Idealize.ShloMosaic Idealize.ShloMosaic.ValueIdx

section
variable (X Hb : FVec Ideal S2048x128 .f32) (S : FVec Ideal S2048x256 .f32) (Wc : FVec Ideal S128x512 .bf16)
  (Ui : FVec Ideal S128x384 .bf16) (bi : FVec Ideal S1x384 .f32) (Uf : FVec Ideal S128x128 .bf16)
  (b1 b2 : FVec Ideal S1x128 .f32)
  (te h cc : FVec Ideal ⟨2, ![262144, 128]⟩ .f32) (sc dc : IVec ⟨2, ![262144, 1]⟩ 32)
  (Wiou Uiou : FVec Ideal ⟨2, ![384, 128]⟩ .f32) (biou : FVec Ideal ⟨2, ![1, 384]⟩ .f32)
  (Ufw : FVec Ideal ⟨2, ![128, 128]⟩ .f32) (ufb : FVec Ideal ⟨1, ![128]⟩ .f32)
  (Wf : FVec Ideal ⟨2, ![128, 128]⟩ .f32) (bf : FVec Ideal ⟨2, ![1, 128]⟩ .f32)
  (p : Fin 2048) (R : Fin 262144)

/-- The gates' pre-activations of the block's row are the node's. -/
theorem gatesB_eq
    (hX : ∀ k : Fin 128, X (ix2 p k) = te (ix2 R k))
    (hS : ∀ k : Fin 128, S (ix2 p (boxH k)) = mail sc dc h R k)
    (hW : ∀ (k : Fin 128) (r : Fin 384), Wc (ix2 k (mergedG r)) = Wiou (ix2 r k))
    (hU : ∀ (k : Fin 128) (r : Fin 384), Ui (ix2 k r) = Uiou (ix2 r k))
    (hb : ∀ r : Fin 384, bi (ix2 (0 : Fin 1) r) = biou (ix2 (0 : Fin 1) r)) (r : Fin 384) :
    gatesB X S Wc Ui bi p r = gatesPre te h sc dc Wiou Uiou biou R r := by
  unfold gatesB gatesPre
  simp only [hX, hS, hW, hU, hb]

/-- The forget gate's pre-activation of the block's row is the node's. -/
theorem forgetB_eq
    (hX : ∀ k : Fin 128, X (ix2 p k) = te (ix2 R k))
    (hH : ∀ k : Fin 128, Hb (ix2 p k) = h (ix2 R k))
    (hWf : ∀ k q : Fin 128, Wc (ix2 k (mergedF q)) = Wf (ix2 q k))
    (hUf : ∀ k q : Fin 128, Uf (ix2 k q) = Ufw (ix2 q k))
    (h1 : ∀ q : Fin 128, b1 (ix2 (0 : Fin 1) q) = ufb (ix1 q))
    (h2 : ∀ q : Fin 128, b2 (ix2 (0 : Fin 1) q) = bf (ix2 (0 : Fin 1) q)) (q : Fin 128) :
    forgetB X Hb Wc Uf b1 b2 p q = forgetPre te h Ufw ufb Wf bf R q := by
  unfold forgetB forgetPre
  simp only [hX, hH, hWf, hUf, h1, h2]

/-- The block's new cell state is the node's. -/
theorem cell_block_eq
    (hX : ∀ k : Fin 128, X (ix2 p k) = te (ix2 R k))
    (hH : ∀ k : Fin 128, Hb (ix2 p k) = h (ix2 R k))
    (hS : ∀ k : Fin 128, S (ix2 p (boxH k)) = mail sc dc h R k)
    (hC : ∀ q : Fin 128, S (ix2 p (boxC q)) = mail sc dc cc R q)
    (hW : ∀ (k : Fin 128) (r : Fin 384), Wc (ix2 k (mergedG r)) = Wiou (ix2 r k))
    (hWf : ∀ k q : Fin 128, Wc (ix2 k (mergedF q)) = Wf (ix2 q k))
    (hU : ∀ (k : Fin 128) (r : Fin 384), Ui (ix2 k r) = Uiou (ix2 r k))
    (hb : ∀ r : Fin 384, bi (ix2 (0 : Fin 1) r) = biou (ix2 (0 : Fin 1) r))
    (hUf : ∀ k q : Fin 128, Uf (ix2 k q) = Ufw (ix2 q k))
    (h1 : ∀ q : Fin 128, b1 (ix2 (0 : Fin 1) q) = ufb (ix1 q))
    (h2 : ∀ q : Fin 128, b2 (ix2 (0 : Fin 1) q) = bf (ix2 (0 : Fin 1) q)) (q : Fin 128) :
    cellC (gatesB X S Wc Ui bi p (colI q)) (gatesB X S Wc Ui bi p (colU q))
        (forgetB X Hb Wc Uf b1 b2 p q) (S (ix2 p (boxC q)))
      = cNewAt te h cc sc dc Wiou Uiou biou Ufw ufb Wf bf R q := by
  rw [gatesB_eq X S Wc Ui bi te h sc dc Wiou Uiou biou p R hX hS hW hU hb,
    gatesB_eq X S Wc Ui bi te h sc dc Wiou Uiou biou p R hX hS hW hU hb,
    forgetB_eq X Hb Wc Uf b1 b2 te h Ufw ufb Wf bf p R hX hH hWf hUf h1 h2, hC]
  rfl

/-- The block's new hidden state is the node's. -/
theorem hidden_block_eq
    (hX : ∀ k : Fin 128, X (ix2 p k) = te (ix2 R k))
    (hH : ∀ k : Fin 128, Hb (ix2 p k) = h (ix2 R k))
    (hS : ∀ k : Fin 128, S (ix2 p (boxH k)) = mail sc dc h R k)
    (hC : ∀ q : Fin 128, S (ix2 p (boxC q)) = mail sc dc cc R q)
    (hW : ∀ (k : Fin 128) (r : Fin 384), Wc (ix2 k (mergedG r)) = Wiou (ix2 r k))
    (hWf : ∀ k q : Fin 128, Wc (ix2 k (mergedF q)) = Wf (ix2 q k))
    (hU : ∀ (k : Fin 128) (r : Fin 384), Ui (ix2 k r) = Uiou (ix2 r k))
    (hb : ∀ r : Fin 384, bi (ix2 (0 : Fin 1) r) = biou (ix2 (0 : Fin 1) r))
    (hUf : ∀ k q : Fin 128, Uf (ix2 k q) = Ufw (ix2 q k))
    (h1 : ∀ q : Fin 128, b1 (ix2 (0 : Fin 1) q) = ufb (ix1 q))
    (h2 : ∀ q : Fin 128, b2 (ix2 (0 : Fin 1) q) = bf (ix2 (0 : Fin 1) q)) (q : Fin 128) :
    cellH (gatesB X S Wc Ui bi p (colO q))
        (cellC (gatesB X S Wc Ui bi p (colI q)) (gatesB X S Wc Ui bi p (colU q))
          (forgetB X Hb Wc Uf b1 b2 p q) (S (ix2 p (boxC q))))
      = hNewAt te h cc sc dc Wiou Uiou biou Ufw ufb Wf bf R q := by
  rw [cell_block_eq X Hb S Wc Ui bi Uf b1 b2 te h cc sc dc Wiou Uiou biou Ufw ufb Wf bf p R
      hX hH hS hC hW hWf hU hb hUf h1 h2,
    gatesB_eq X S Wc Ui bi te h sc dc Wiou Uiou biou p R hX hS hW hU hb]
  rfl

end

end Cert.TreeCell

end
-- ==== Proof.LibConcatRows.lean ====
/-
  A reusable lemma: two matrices with the same number of columns stacked one above the other, read at an entry.

  The concatenation along axis 0 of an [a, N] array and a [b, N] array into a [c, N] array (c = a + b), at (j, n):
  the upper piece at (j, n) when j is below a, the lower piece at (j - a, n) otherwise.  Generic in a, b, c, N and in
  the element type; the row of the piece is passed with its defining equation, so a use site picks its own spelling.
-/
import Idealize.ShloMosaic.Lib.Pipeline.Value
import Idealize.ShloMosaic.Lib.ValueIdx

noncomputable section

namespace Cert.ConcatRows

open Idealize.ShloMosaic Idealize.ShloMosaic.ValueIdx

variable {α : Type} {a b c N : ℕ}

/-- A row in the upper piece: the upper piece at the same row and the same column. -/
theorem upper_apply (x₁ : (⟨2, ![a, N]⟩ : Shape).Idx → α) (x₂ : (⟨2, ![b, N]⟩ : Shape).Idx → α)
    (h : Shape.Concatenates [⟨2, ![a, N]⟩, ⟨2, ![b, N]⟩] ⟨2, ![c, N]⟩ 0)
    (j : Fin c) (n : Fin N) (k : Fin a) (hk : k.val = j.val) :
    concatenate ⟨2, ![c, N]⟩ 0 [⟨⟨2, ![a, N]⟩, x₁⟩, ⟨⟨2, ![b, N]⟩, x₂⟩] h (ix2 j n) = x₁ (ix2 k n) :=
  concatenate_pair_apply_left 0 x₁ x₂ h (ix2 j n) rfl (ix2 k n)
    (fun d => match d with | ⟨0, _⟩ => hk | ⟨1, _⟩ => rfl)

/-- A row past the upper piece: the lower piece at the row less the upper piece's height, the same column. -/
theorem lower_apply (x₁ : (⟨2, ![a, N]⟩ : Shape).Idx → α) (x₂ : (⟨2, ![b, N]⟩ : Shape).Idx → α)
    (h : Shape.Concatenates [⟨2, ![a, N]⟩, ⟨2, ![b, N]⟩] ⟨2, ![c, N]⟩ 0)
    (j : Fin c) (n : Fin N) (k : Fin b) (hk : k.val + a = j.val) :
    concatenate ⟨2, ![c, N]⟩ 0 [⟨⟨2, ![a, N]⟩, x₁⟩, ⟨⟨2, ![b, N]⟩, x₂⟩] h (ix2 j n) = x₂ (ix2 k n) :=
  concatenate_pair_apply_right 0 x₁ x₂ h (ix2 j n) rfl rfl (ix2 k n)
    (fun d hd => match d, hd with
      | ⟨0, _⟩, hd => absurd rfl hd
      | ⟨1, _⟩, _ => rfl) hk

end Cert.ConcatRows

end
-- ==== Proof.HostSide.lean ====
/-
  What the kernel program's host operations leave in the arrays its windows stage, read at an entry.

  Before the launch @main forms: the mailboxes of [h | c] (one gather and one scatter-add over 256 columns), the
  merged input weights [W_f ; W_iou] transposed, the two recurrent weight matrices transposed, and the forget gate's
  recurrent bias as a row.  The conversions to bf16 are the identity over the extended reals.
-/
import proofs.«167092_j29386166239562_2_alg».proof.Proof.Gen.KernelIdeal.Frame
import proofs.«167092_j29386166239562_2_alg».proof.Proof.Mailbox
import proofs.«167092_j29386166239562_2_alg».proof.Proof.Block
import proofs.«167092_j29386166239562_2_alg».proof.Proof.LibConcatRows
import Idealize.ShloMosaic.Lib.ValueLayout
import Idealize.ShloMosaic.Lib.StableHlo.Run

noncomputable section

open scoped BigOperators

namespace Cert.TreeCell.Host

open Cert.KernelIdeal Cert.KernelIdeal.Gen Cert.TreeCell Idealize.ShloMosaic Idealize.ShloMosaic.TcCoe
open Idealize.SL.Sem Idealize.ShloMosaic.StableHlo Idealize.ShloMosaic.ValueIdx

/-- The column of child rows: a negative entry of src is shifted up by the number of nodes (an index counted from the
    end), then the vector is laid as a column. -/
def childCol (src : IVec S262144 32) : IVec S262144x1 32 :=
  broadcastInDim S262144x1 ![0] bcast_S262144_S262144x1_0
    (select (cmpi .slt src (broadcastInDim S262144 ![] bcast_S_S262144 (constantI S_ 32 0#32)))
      (addi src (broadcastInDim S262144 ![] bcast_S_S262144 (constantI S_ 32 262144#32))) src)

/-- The column of parent rows: dst laid as a column. -/
def parentCol (dst : IVec S262144 32) : IVec S262144x1 32 :=
  broadcastInDim S262144x1 ![0] bcast_S262144_S262144x1_0 dst

variable (m : (ℓ : Loc nD τ sig) → Buf (Elt Ideal) ℓ) (c : Dev nD)

/-- The array of mailboxes at (v, j) is the mailbox of the two state arrays side by side. -/
theorem boxes_apply (v : Fin 262144) (j : Fin 256) :
    (V m c main_v10 : S262144x256.Idx → EReal) (ix2 v j)
      = mail (childCol (m ((c : Thread nD τ).loc main_arg3))) (parentCol (m ((c : Thread nD τ).loc main_arg4)))
          (concatenate S262144x256 1 [⟨S262144x128, m ((c : Thread nD τ).loc main_arg1)⟩,
            ⟨S262144x128, m ((c : Thread nD τ).loc main_arg2)⟩] concatenates_S262144x128_S262144x128_S262144x256_d1) v j := by
  have e : (V m c main_v10 : S262144x256.Idx → EReal)
      = Host.scatterAdd scatter_S262144x256_S262144x1_S262144x256_1_0_0_1
          (broadcastInDim S262144x256 ![] bcast_S_S262144x256 (constant (F := Ideal) S_ .f32 0x00000000#32))
          (parentCol (m ((c : Thread nD τ).loc main_arg4)))
          (Host.gather gather_S262144x256_S262144x1_S262144x256_1_0_n_n_0_1_1256
            (concatenate S262144x256 1 [⟨S262144x128, m ((c : Thread nD τ).loc main_arg1)⟩,
              ⟨S262144x128, m ((c : Thread nD τ).loc main_arg2)⟩] concatenates_S262144x128_S262144x128_S262144x256_d1)
            (childCol (m ((c : Thread nD τ).loc main_arg3)))) := by
    dsimp only [Gen.V, Gen.hostOps0]
    after_results
    rfl
  rw [e]
  exact scatter_gather_apply scatter_S262144x256_S262144x1_S262144x256_1_0_0_1 rfl rfl rfl rfl
    gather_S262144x256_S262144x1_S262144x256_1_0_n_n_0_1_1256 rfl rfl rfl rfl rfl rfl rfl
    (broadcastInDim S262144x256 ![] bcast_S_S262144x256 (constant (F := Ideal) S_ .f32 0x00000000#32))
    (fun i => (broadcastInDim_apply _ bcast_S_S262144x256 _ i ix0 (fun a => a.elim0)).trans rfl)
    _ _ _ v j

/-- Its left half is the mailbox of h … -/
theorem boxes_h (v : Fin 262144) (k : Fin 128) :
    (V m c main_v10 : S262144x256.Idx → EReal) (ix2 v (boxH k))
      = mail (childCol (m ((c : Thread nD τ).loc main_arg3))) (parentCol (m ((c : Thread nD τ).loc main_arg4)))
          (m ((c : Thread nD τ).loc main_arg1)) v k :=
  (boxes_apply m c v (boxH k)).trans (mail_concat_left _ _ _ _ _ v (boxH k) k rfl)

/-- … and its right half the mailbox of c. -/
theorem boxes_c (v : Fin 262144) (q : Fin 128) :
    (V m c main_v10 : S262144x256.Idx → EReal) (ix2 v (boxC q))
      = mail (childCol (m ((c : Thread nD τ).loc main_arg3))) (parentCol (m ((c : Thread nD τ).loc main_arg4)))
          (m ((c : Thread nD τ).loc main_arg2)) v q :=
  (boxes_apply m c v (boxC q)).trans (mail_concat_right _ _ _ _ _ v (boxC q) q rfl)

/-- The merged input weights, transposed: entry (k, j) is row j of [W_f ; W_iou] at column k. -/
theorem merged_eq :
    (V m c main_v13 : S128x512.Idx → EReal)
      = truncf (F := Ideal) .bf16 (transpose S128x512 [1, 0]
          (concatenate S512x128 0 [⟨S128x128, m ((c : Thread nD τ).loc main_arg10)⟩,
            ⟨S384x128, m ((c : Thread nD τ).loc main_arg5)⟩] concatenates_S128x128_S384x128_S512x128_d0)
          transposes_S512x128_S128x512_1_0) bitsLt_bf16_f32 := by
  dsimp only [Gen.V, Gen.hostOps0]
  after_results

/-- Its first 128 columns are W_f transposed … -/
theorem merged_f (k q : Fin 128) :
    (V m c main_v13 : S128x512.Idx → EReal) (ix2 k (mergedF q)) = m ((c : Thread nD τ).loc main_arg10) (ix2 q k) := by
  rw [merged_eq]
  exact (transpose_ix2_apply (concatenate S512x128 0 [⟨S128x128, m ((c : Thread nD τ).loc main_arg10)⟩,
      ⟨S384x128, m ((c : Thread nD τ).loc main_arg5)⟩] concatenates_S128x128_S384x128_S512x128_d0)
    transposes_S512x128_S128x512_1_0 k (mergedF q)).trans
    (Cert.ConcatRows.upper_apply _ _ concatenates_S128x128_S384x128_S512x128_d0 (mergedF q) k q rfl)

/-- … and its last 384 columns W_iou transposed. -/
theorem merged_g (k : Fin 128) (r : Fin 384) :
    (V m c main_v13 : S128x512.Idx → EReal) (ix2 k (mergedG r)) = m ((c : Thread nD τ).loc main_arg5) (ix2 r k) := by
  rw [merged_eq]
  exact (transpose_ix2_apply (concatenate S512x128 0 [⟨S128x128, m ((c : Thread nD τ).loc main_arg10)⟩,
      ⟨S384x128, m ((c : Thread nD τ).loc main_arg5)⟩] concatenates_S128x128_S384x128_S512x128_d0)
    transposes_S512x128_S128x512_1_0 k (mergedG r)).trans
    (Cert.ConcatRows.lower_apply _ _ concatenates_S128x128_S384x128_S512x128_d0 (mergedG r) k r rfl)

/-- The forget gate's recurrent weights, transposed. -/
theorem uf_apply (k q : Fin 128) :
    (V m c main_v15 : S128x128.Idx → EReal) (ix2 k q) = m ((c : Thread nD τ).loc main_arg8) (ix2 q k) := by
  have e : (V m c main_v15 : S128x128.Idx → EReal)
      = truncf (F := Ideal) .bf16 (transpose S128x128 [1, 0] (m ((c : Thread nD τ).loc main_arg8))
          transposes_S128x128_S128x128_1_0) bitsLt_bf16_f32 := by
    dsimp only [Gen.V, Gen.hostOps0]
    after_results
  rw [e]
  exact transpose_ix2_apply _ transposes_S128x128_S128x128_1_0 k q

/-- The other gates' recurrent weights, transposed. -/
theorem uiou_apply (k : Fin 128) (r : Fin 384) :
    (V m c main_v17 : S128x384.Idx → EReal) (ix2 k r) = m ((c : Thread nD τ).loc main_arg6) (ix2 r k) := by
  have e : (V m c main_v17 : S128x384.Idx → EReal)
      = truncf (F := Ideal) .bf16 (transpose S128x384 [1, 0] (m ((c : Thread nD τ).loc main_arg6))
          transposes_S384x128_S128x384_1_0) bitsLt_bf16_f32 := by
    dsimp only [Gen.V, Gen.hostOps0]
    after_results
  rw [e]
  exact transpose_ix2_apply _ transposes_S384x128_S128x384_1_0 k r

/-- The forget gate's recurrent bias as a row. -/
theorem ufb_apply (q : Fin 128) :
    (V m c main_v18 : S1x128.Idx → EReal) (ix2 (0 : Fin 1) q) = m ((c : Thread nD τ).loc main_arg9) (ix1 q) := by
  have e : (V m c main_v18 : S1x128.Idx → EReal)
      = shapeCast S1x128 (m ((c : Thread nD τ).loc main_arg9)) shapeCasts_S128_S1x128 := by
    dsimp only [Gen.V, Gen.hostOps0]
    after_results
    rfl
  rw [e]
  exact shapeCast_a_1a_apply _ shapeCasts_S128_S1x128 (0 : Fin 1) q

end Cert.TreeCell.Host

end
-- ==== Proof.Kernel.lean ====
/-
  From blocks to arrays: grid point t handles the 2048 nodes t·2048 … t·2048 + 2047.  Its input blocks are those rows
  of the embeddings, of the hidden states and of the mailboxes, and the whole of every weight array; the two blocks it
  writes back are those rows of the specification's new hidden states and new cell states.  The 128 points' blocks
  tile the 262144 nodes, so after the run the two result arrays ARE the specification's arrays.
-/
import proofs.«167092_j29386166239562_2_alg».proof.Proof.Gen.KernelIdeal.Value
import proofs.«167092_j29386166239562_2_alg».proof.Proof.Transfer
import proofs.«167092_j29386166239562_2_alg».proof.Proof.HostSide

set_option maxRecDepth 16384

noncomputable section

open scoped BigOperators

namespace Cert.TreeCell.Kernel

open Cert.KernelIdeal Cert.KernelIdeal.Gen Cert.TreeCell Cert.TreeCell.Host
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The specification's new hidden states and new cell states of the kernel program's argument arrays. -/
def hOut (c : Dev nD) : S262144x128.Idx → EReal :=
  hNew (m ((c : Thread nD τ).loc main_arg0)) (m ((c : Thread nD τ).loc main_arg1)) (m ((c : Thread nD τ).loc main_arg2))
      (childCol (m ((c : Thread nD τ).loc main_arg3))) (parentCol (m ((c : Thread nD τ).loc main_arg4)))
      (m ((c : Thread nD τ).loc main_arg5)) (m ((c : Thread nD τ).loc main_arg6)) (m ((c : Thread nD τ).loc main_arg7))
      (m ((c : Thread nD τ).loc main_arg8)) (m ((c : Thread nD τ).loc main_arg9))
      (m ((c : Thread nD τ).loc main_arg10)) (m ((c : Thread nD τ).loc main_arg11))

def cOut (c : Dev nD) : S262144x128.Idx → EReal :=
  cNew (m ((c : Thread nD τ).loc main_arg0)) (m ((c : Thread nD τ).loc main_arg1)) (m ((c : Thread nD τ).loc main_arg2))
      (childCol (m ((c : Thread nD τ).loc main_arg3))) (parentCol (m ((c : Thread nD τ).loc main_arg4)))
      (m ((c : Thread nD τ).loc main_arg5)) (m ((c : Thread nD τ).loc main_arg6)) (m ((c : Thread nD τ).loc main_arg7))
      (m ((c : Thread nD τ).loc main_arg8)) (m ((c : Thread nD τ).loc main_arg9))
      (m ((c : Thread nD τ).loc main_arg10)) (m ((c : Thread nD τ).loc main_arg11))

/-- The printed index maps, decided over the 128 grid points: the row windows sit at block row t, the weight windows
    at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- The node that row p of grid point t's blocks is. -/
def node (t : Fin cfg0.N) (p : Fin 2048) : Fin 262144 :=
  ⟨t.val * 2048 + p.val, by have h1 := t.isLt; have h2 : cfg0.N = 128 := N_0; have h3 := p.isLt; omega⟩

/-! ## The input blocks at a point -/

theorem blk0 (c : Dev nD) (t : Fin cfg0.N) (p : Fin 2048) (k : Fin 128) :
    iblk m c 0 t (ix2 p k) = m ((c : Thread nD τ).loc main_arg0) (ix2 (node t p) k) := by
  obtain ⟨e0, e1, -⟩ := idx_facts t
  show V m c main_arg0 (((cfg0.win 0).blk t).view.emb (ix2 p k)) = _
  refine (congrFun (V_main_arg0 m c) _).trans (congrArg _ (funext fun a => Fin.ext ?_))
  match a with
  | ⟨0, _⟩ => show win0_0.index t (0 : Fin 2) * 2048 + 1 * p.val = t.val * 2048 + p.val; rw [e0]; omega
  | ⟨1, _⟩ => show win0_0.index t (1 : Fin 2) * 128 + 1 * k.val = k.val; rw [e1]; omega

theorem blk1 (c : Dev nD) (t : Fin cfg0.N) (p : Fin 2048) (k : Fin 128) :
    iblk m c 1 t (ix2 p k) = m ((c : Thread nD τ).loc main_arg1) (ix2 (node t p) k) := by
  obtain ⟨-, -, e0, e1, -⟩ := idx_facts t
  show V m c main_arg1 (((cfg0.win 1).blk t).view.emb (ix2 p k)) = _
  refine (congrFun (V_main_arg1 m c) _).trans (congrArg _ (funext fun a => Fin.ext ?_))
  match a with
  | ⟨0, _⟩ => show win0_1.index t (0 : Fin 2) * 2048 + 1 * p.val = t.val * 2048 + p.val; rw [e0]; omega
  | ⟨1, _⟩ => show win0_1.index t (1 : Fin 2) * 128 + 1 * k.val = k.val; rw [e1]; omega

theorem blk2 (c : Dev nD) (t : Fin cfg0.N) (p : Fin 2048) (j : Fin 256) :
    iblk m c 2 t (ix2 p j) = (V m c main_v10 : S262144x256.Idx → EReal) (ix2 (node t p) j) := by
  obtain ⟨-, -, -, -, e0, e1, -⟩ := idx_facts t
  show V m c main_v10 (((cfg0.win 2).blk t).view.emb (ix2 p j)) = _
  refine congrArg _ (funext fun a => Fin.ext ?_)
  match a with
  | ⟨0, _⟩ => show win0_2.index t (0 : Fin 2) * 2048 + 1 * p.val = t.val * 2048 + p.val; rw [e0]; omega
  | ⟨1, _⟩ => show win0_2.index t (1 : Fin 2) * 256 + 1 * j.val = j.val; rw [e1]; omega

theorem blk3 (c : Dev nD) (t : Fin cfg0.N) (k : Fin 128) (j : Fin 512) :
    iblk m c 3 t (ix2 k j) = (V m c main_v13 : S128x512.Idx → EReal) (ix2 k j) := by
  obtain ⟨-, -, -, -, -, -, e0, e1, -⟩ := idx_facts t
  show V m c main_v13 (((cfg0.win 3).blk t).view.emb (ix2 k j)) = _
  refine congrArg _ (funext fun a => Fin.ext ?_)
  match a with
  | ⟨0, _⟩ => show win0_3.index t (0 : Fin 2) * 128 + 1 * k.val = k.val; rw [e0]; omega
  | ⟨1, _⟩ => show win0_3.index t (1 : Fin 2) * 512 + 1 * j.val = j.val; rw [e1]; omega

theorem blk4 (c : Dev nD) (t : Fin cfg0.N) (k q : Fin 128) :
    iblk m c 4 t (ix2 k q) = (V m c main_v15 : S128x128.Idx → EReal) (ix2 k q) := by
  obtain ⟨-, -, -, -, -, -, -, -, e0, e1, -⟩ := idx_facts t
  show V m c main_v15 (((cfg0.win 4).blk t).view.emb (ix2 k q)) = _
  refine congrArg _ (funext fun a => Fin.ext ?_)
  match a with
  | ⟨0, _⟩ => show win0_4.index t (0 : Fin 2) * 128 + 1 * k.val = k.val; rw [e0]; omega
  | ⟨1, _⟩ => show win0_4.index t (1 : Fin 2) * 128 + 1 * q.val = q.val; rw [e1]; omega

theorem blk5 (c : Dev nD) (t : Fin cfg0.N) (q : Fin 128) :
    iblk m c 5 t (ix2 (0 : Fin 1) q) = (V m c main_v18 : S1x128.Idx → EReal) (ix2 (0 : Fin 1) q) := by
  obtain ⟨-, -, -, -, -, -, -, -, -, -, e0, e1, -⟩ := idx_facts t
  show V m c main_v18 (((cfg0.win 5).blk t).view.emb (ix2 (0 : Fin 1) q)) = _
  refine congrArg _ (funext fun a => Fin.ext ?_)
  match a with
  | ⟨0, _⟩ => show win0_5.index t (0 : Fin 2) * 1 + 1 * 0 = 0; rw [e0]
  | ⟨1, _⟩ => show win0_5.index t (1 : Fin 2) * 128 + 1 * q.val = q.val; rw [e1]; omega

theorem blk6 (c : Dev nD) (t : Fin cfg0.N) (q : Fin 128) :
    iblk m c 6 t (ix2 (0 : Fin 1) q) = m ((c : Thread nD τ).loc main_arg11) (ix2 (0 : Fin 1) q) := by
  obtain ⟨-, -, -, -, -, -, -, -, -, -, -, -, e0, e1, -⟩ := idx_facts t
  show V m c main_arg11 (((cfg0.win 6).blk t).view.emb (ix2 (0 : Fin 1) q)) = _
  refine (congrFun (V_main_arg11 m c) _).trans (congrArg _ (funext fun a => Fin.ext ?_))
  match a with
  | ⟨0, _⟩ => show win0_6.index t (0 : Fin 2) * 1 + 1 * 0 = 0; rw [e0]
  | ⟨1, _⟩ => show win0_6.index t (1 : Fin 2) * 128 + 1 * q.val = q.val; rw [e1]; omega

theorem blk7 (c : Dev nD) (t : Fin cfg0.N) (k : Fin 128) (r : Fin 384) :
    iblk m c 7 t (ix2 k r) = (V m c main_v17 : S128x384.Idx → EReal) (ix2 k r) := by
  obtain ⟨-, -, -, -, -, -, -, -, -, -, -, -, -, -, e0, e1, -⟩ := idx_facts t
  show V m c main_v17 (((cfg0.win 7).blk t).view.emb (ix2 k r)) = _
  refine congrArg _ (funext fun a => Fin.ext ?_)
  match a with
  | ⟨0, _⟩ => show win0_7.index t (0 : Fin 2) * 128 + 1 * k.val = k.val; rw [e0]; omega
  | ⟨1, _⟩ => show win0_7.index t (1 : Fin 2) * 384 + 1 * r.val = r.val; rw [e1]; omega

theorem blk8 (c : Dev nD) (t : Fin cfg0.N) (r : Fin 384) :
    iblk m c 8 t (ix2 (0 : Fin 1) r) = m ((c : Thread nD τ).loc main_arg7) (ix2 (0 : Fin 1) r) := by
  obtain ⟨-, -, -, -, -, -, -, -, -, -, -, -, -, -, -, -, e0, e1, -⟩ := idx_facts t
  show V m c main_arg7 (((cfg0.win 8).blk t).view.emb (ix2 (0 : Fin 1) r)) = _
  refine (congrFun (V_main_arg7 m c) _).trans (congrArg _ (funext fun a => Fin.ext ?_))
  match a with
  | ⟨0, _⟩ => show win0_8.index t (0 : Fin 2) * 1 + 1 * 0 = 0; rw [e0]
  | ⟨1, _⟩ => show win0_8.index t (1 : Fin 2) * 384 + 1 * r.val = r.val; rw [e1]; omega

/-! ## What a point writes back -/

/-- Row p, feature q of the block grid point t writes to either result is node t·2048 + p, feature q of the array. -/
theorem emb9 (t : Fin cfg0.N) (p : Fin 2048) (q : Fin 128) :
    ((cfg0.win 9).blk t).view.emb (ix2 p q) = ix2 (node t p) q := by
  obtain ⟨-, -, -, -, -, -, -, -, -, -, -, -, -, -, -, -, -, -, e0, e1, -⟩ := idx_facts t
  refine funext fun a => Fin.ext ?_
  match a with
  | ⟨0, _⟩ => show win0_9.index t (0 : Fin 2) * 2048 + 1 * p.val = t.val * 2048 + p.val; rw [e0]; omega
  | ⟨1, _⟩ => show win0_9.index t (1 : Fin 2) * 128 + 1 * q.val = q.val; rw [e1]; omega

theorem emb10 (t : Fin cfg0.N) (p : Fin 2048) (q : Fin 128) :
    ((cfg0.win 10).blk t).view.emb (ix2 p q) = ix2 (node t p) q := by
  obtain ⟨-, -, -, -, -, -, -, -, -, -, -, -, -, -, -, -, -, -, -, -, e0, e1⟩ := idx_facts t
  refine funext fun a => Fin.ext ?_
  match a with
  | ⟨0, _⟩ => show win0_10.index t (0 : Fin 2) * 2048 + 1 * p.val = t.val * 2048 + p.val; rw [e0]; omega
  | ⟨1, _⟩ => show win0_10.index t (1 : Fin 2) * 128 + 1 * q.val = q.val; rw [e1]; omega

/-- WHAT POINT t WRITES BACK to the first result is block t of the specification's new hidden states. -/
theorem flushed9_eq (c : Dev nD) (t : Fin cfg0.N) :
    (dats m 0 c).flushed 9 t = ((cfg0.win 9).blk t).view.read (Elt Ideal) (hOut m c) := by
  rw [Cert.KernelIdeal.Value.flushed9]
  unfold out0_9
  simp only [View.ld_unit_zero (S := S2048x128) hz, View.ld_unit_zero (S := S2048x256) hz, View.ld_unit_zero (S := S128x512) hz, View.ld_unit_zero (S := S128x128) hz, View.ld_unit_zero (S := S1x128) hz, View.ld_unit_zero (S := S128x384) hz, View.ld_unit_zero (S := S1x384) hz]
  funext y
  obtain ⟨p, q, rfl⟩ : ∃ (p : Fin 2048) (q : Fin 128), y = ix2 p q := ⟨y 0, y 1, eq_ix2 y⟩
  refine Eq.trans (b := Cert.KernelIdeal.Value.E9 (F := Ideal) (iblk m c 0 t) (iblk m c 2 t) (iblk m c 3 t) (iblk m c 7 t) (iblk m c 8 t) (iblk m c 1 t) (iblk m c 4 t) (iblk m c 5 t) (iblk m c 6 t) (ix2 p q)) ?_ ?_
  · exact Cert.KernelIdeal.Value.canon9_eq (F := Ideal) (iblk m c 0 t) (iblk m c 2 t) (iblk m c 3 t) (iblk m c 7 t) (iblk m c 8 t) (iblk m c 1 t) (iblk m c 4 t) (iblk m c 5 t) (iblk m c 6 t) (ix2 p q)
  refine (hidden_block_apply (iblk m c 0 t) (iblk m c 1 t) (iblk m c 2 t) (iblk m c 3 t) (iblk m c 7 t) (iblk m c 8 t) (iblk m c 4 t) (iblk m c 5 t) (iblk m c 6 t) p q).trans ?_
  show _ = hOut m c (((cfg0.win 9).blk t).view.emb (ix2 p q))
  rw [emb9 t p q]
  show _ = hNewAt (m ((c : Thread nD τ).loc main_arg0)) (m ((c : Thread nD τ).loc main_arg1)) (m ((c : Thread nD τ).loc main_arg2))
      (childCol (m ((c : Thread nD τ).loc main_arg3))) (parentCol (m ((c : Thread nD τ).loc main_arg4)))
      (m ((c : Thread nD τ).loc main_arg5)) (m ((c : Thread nD τ).loc main_arg6)) (m ((c : Thread nD τ).loc main_arg7))
      (m ((c : Thread nD τ).loc main_arg8)) (m ((c : Thread nD τ).loc main_arg9))
      (m ((c : Thread nD τ).loc main_arg10)) (m ((c : Thread nD τ).loc main_arg11)) (node t p) q
  exact hidden_block_eq (iblk m c 0 t) (iblk m c 1 t) (iblk m c 2 t) (iblk m c 3 t) (iblk m c 7 t) (iblk m c 8 t) (iblk m c 4 t) (iblk m c 5 t) (iblk m c 6 t)
      (m ((c : Thread nD τ).loc main_arg0)) (m ((c : Thread nD τ).loc main_arg1)) (m ((c : Thread nD τ).loc main_arg2))
      (childCol (m ((c : Thread nD τ).loc main_arg3))) (parentCol (m ((c : Thread nD τ).loc main_arg4)))
      (m ((c : Thread nD τ).loc main_arg5)) (m ((c : Thread nD τ).loc main_arg6)) (m ((c : Thread nD τ).loc main_arg7))
      (m ((c : Thread nD τ).loc main_arg8)) (m ((c : Thread nD τ).loc main_arg9))
      (m ((c : Thread nD τ).loc main_arg10)) (m ((c : Thread nD τ).loc main_arg11)) p (node t p)
      (fun k => blk0 m c t p k) (fun k => blk1 m c t p k)
      (fun k => (blk2 m c t p (boxH k)).trans (boxes_h m c (node t p) k))
      (fun q => (blk2 m c t p (boxC q)).trans (boxes_c m c (node t p) q))
      (fun k r => (blk3 m c t k (mergedG r)).trans (merged_g m c k r))
      (fun k q => (blk3 m c t k (mergedF q)).trans (merged_f m c k q))
      (fun k r => (blk7 m c t k r).trans (uiou_apply m c k r))
      (fun r => blk8 m c t r)
      (fun k q => (blk4 m c t k q).trans (uf_apply m c k q))
      (fun q => (blk5 m c t q).trans (ufb_apply m c q))
      (fun q => blk6 m c t q) q

/-- WHAT POINT t WRITES BACK to the second result is block t of the specification's new cell states. -/
theorem flushed10_eq (c : Dev nD) (t : Fin cfg0.N) :
    (dats m 0 c).flushed 10 t = ((cfg0.win 10).blk t).view.read (Elt Ideal) (cOut m c) := by
  rw [Cert.KernelIdeal.Value.flushed10]
  unfold out0_10
  simp only [View.ld_unit_zero (S := S2048x128) hz, View.ld_unit_zero (S := S2048x256) hz, View.ld_unit_zero (S := S128x512) hz, View.ld_unit_zero (S := S128x128) hz, View.ld_unit_zero (S := S1x128) hz, View.ld_unit_zero (S := S128x384) hz, View.ld_unit_zero (S := S1x384) hz]
  funext y
  obtain ⟨p, q, rfl⟩ : ∃ (p : Fin 2048) (q : Fin 128), y = ix2 p q := ⟨y 0, y 1, eq_ix2 y⟩
  refine Eq.trans (b := Cert.KernelIdeal.Value.E10 (F := Ideal) (iblk m c 0 t) (iblk m c 2 t) (iblk m c 3 t) (iblk m c 7 t) (iblk m c 8 t) (iblk m c 1 t) (iblk m c 4 t) (iblk m c 5 t) (iblk m c 6 t) (ix2 p q)) ?_ ?_
  · exact Cert.KernelIdeal.Value.canon10_eq (F := Ideal) (iblk m c 0 t) (iblk m c 2 t) (iblk m c 3 t) (iblk m c 7 t) (iblk m c 8 t) (iblk m c 1 t) (iblk m c 4 t) (iblk m c 5 t) (iblk m c 6 t) (ix2 p q)
  refine (cell_block_apply (iblk m c 0 t) (iblk m c 1 t) (iblk m c 2 t) (iblk m c 3 t) (iblk m c 7 t) (iblk m c 8 t) (iblk m c 4 t) (iblk m c 5 t) (iblk m c 6 t) p q).trans ?_
  show _ = cOut m c (((cfg0.win 10).blk t).view.emb (ix2 p q))
  rw [emb10 t p q]
  show _ = cNewAt (m ((c : Thread nD τ).loc main_arg0)) (m ((c : Thread nD τ).loc main_arg1)) (m ((c : Thread nD τ).loc main_arg2))
      (childCol (m ((c : Thread nD τ).loc main_arg3))) (parentCol (m ((c : Thread nD τ).loc main_arg4)))
      (m ((c : Thread nD τ).loc main_arg5)) (m ((c : Thread nD τ).loc main_arg6)) (m ((c : Thread nD τ).loc main_arg7))
      (m ((c : Thread nD τ).loc main_arg8)) (m ((c : Thread nD τ).loc main_arg9))
      (m ((c : Thread nD τ).loc main_arg10)) (m ((c : Thread nD τ).loc main_arg11)) (node t p) q
  exact cell_block_eq (iblk m c 0 t) (iblk m c 1 t) (iblk m c 2 t) (iblk m c 3 t) (iblk m c 7 t) (iblk m c 8 t) (iblk m c 4 t) (iblk m c 5 t) (iblk m c 6 t)
      (m ((c : Thread nD τ).loc main_arg0)) (m ((c : Thread nD τ).loc main_arg1)) (m ((c : Thread nD τ).loc main_arg2))
      (childCol (m ((c : Thread nD τ).loc main_arg3))) (parentCol (m ((c : Thread nD τ).loc main_arg4)))
      (m ((c : Thread nD τ).loc main_arg5)) (m ((c : Thread nD τ).loc main_arg6)) (m ((c : Thread nD τ).loc main_arg7))
      (m ((c : Thread nD τ).loc main_arg8)) (m ((c : Thread nD τ).loc main_arg9))
      (m ((c : Thread nD τ).loc main_arg10)) (m ((c : Thread nD τ).loc main_arg11)) p (node t p)
      (fun k => blk0 m c t p k) (fun k => blk1 m c t p k)
      (fun k => (blk2 m c t p (boxH k)).trans (boxes_h m c (node t p) k))
      (fun q => (blk2 m c t p (boxC q)).trans (boxes_c m c (node t p) q))
      (fun k r => (blk3 m c t k (mergedG r)).trans (merged_g m c k r))
      (fun k q => (blk3 m c t k (mergedF q)).trans (merged_f m c k q))
      (fun k r => (blk7 m c t k r).trans (uiou_apply m c k r))
      (fun r => blk8 m c t r)
      (fun k q => (blk4 m c t k q).trans (uf_apply m c k q))
      (fun q => (blk5 m c t q).trans (ufb_apply m c q))
      (fun q => blk6 m c t q) q

/-! ## The blocks tile the arrays -/

theorem mem_blk9 (t : Fin cfg0.N) (i : S262144x128.Idx) :
    i ∈ ((cfg0.win 9).blk t).view.set ↔ ∀ a : Fin 2, win0_9.index t a * S2048x128.size a ≤ (i a).val
      ∧ (i a).val < win0_9.index t a * S2048x128.size a + S2048x128.size a := by
  show i ∈ ((View.whole main_v19_0).slice (win0_9.rect t)).set ↔ _
  rw [View.set_slice_whole, Rect.mem_set_unit]
  exact Iff.rfl

theorem mem_blk10 (t : Fin cfg0.N) (i : S262144x128.Idx) :
    i ∈ ((cfg0.win 10).blk t).view.set ↔ ∀ a : Fin 2, win0_10.index t a * S2048x128.size a ≤ (i a).val
      ∧ (i a).val < win0_10.index t a * S2048x128.size a + S2048x128.size a := by
  show i ∈ ((View.whole main_v19_1).slice (win0_10.rect t)).set ↔ _
  rw [View.set_slice_whole, Rect.mem_set_unit]
  exact Iff.rfl

/-- The point whose blocks hold node R. -/
def pointOf (R : ℕ) (hR : R < 262144) : Fin cfg0.N :=
  ⟨R / 2048, by have h2 : cfg0.N = 128 := N_0; omega⟩

/-- Every entry of the first result is in some point's block. -/
theorem cover9 (i : S262144x128.Idx) :
    ∃ t : Fin cfg0.N, (cfg0.win 9).flush t = true ∧ i ∈ ((cfg0.win 9).blk t).view.set := by
  have hi0 : (i 0).val < 262144 := (i 0).isLt
  have hi1 : (i 1).val < 128 := (i 1).isLt
  obtain ⟨-, -, -, -, -, -, -, -, -, -, -, -, -, -, -, -, -, -, e0, e1, -⟩ := idx_facts (pointOf (i 0).val hi0)
  refine ⟨pointOf (i 0).val hi0, flush0_9 _, ?_⟩
  rw [mem_blk9]
  intro a
  match a with
  | ⟨0, _⟩ =>
    show win0_9.index (pointOf (i 0).val hi0) (0 : Fin 2) * 2048 ≤ (i 0).val
      ∧ (i 0).val < win0_9.index (pointOf (i 0).val hi0) (0 : Fin 2) * 2048 + 2048
    rw [e0]
    show (i 0).val / 2048 * 2048 ≤ (i 0).val ∧ (i 0).val < (i 0).val / 2048 * 2048 + 2048
    omega
  | ⟨1, _⟩ =>
    show win0_9.index (pointOf (i 0).val hi0) (1 : Fin 2) * 128 ≤ (i 1).val
      ∧ (i 1).val < win0_9.index (pointOf (i 0).val hi0) (1 : Fin 2) * 128 + 128
    rw [e1]
    omega

/-- Every entry of the second result is in some point's block. -/
theorem cover10 (i : S262144x128.Idx) :
    ∃ t : Fin cfg0.N, (cfg0.win 10).flush t = true ∧ i ∈ ((cfg0.win 10).blk t).view.set := by
  have hi0 : (i 0).val < 262144 := (i 0).isLt
  have hi1 : (i 1).val < 128 := (i 1).isLt
  obtain ⟨-, -, -, -, -, -, -, -, -, -, -, -, -, -, -, -, -, -, -, -, e0, e1⟩ := idx_facts (pointOf (i 0).val hi0)
  refine ⟨pointOf (i 0).val hi0, flush0_10 _, ?_⟩
  rw [mem_blk10]
  intro a
  match a with
  | ⟨0, _⟩ =>
    show win0_10.index (pointOf (i 0).val hi0) (0 : Fin 2) * 2048 ≤ (i 0).val
      ∧ (i 0).val < win0_10.index (pointOf (i 0).val hi0) (0 : Fin 2) * 2048 + 2048
    rw [e0]
    show (i 0).val / 2048 * 2048 ≤ (i 0).val ∧ (i 0).val < (i 0).val / 2048 * 2048 + 2048
    omega
  | ⟨1, _⟩ =>
    show win0_10.index (pointOf (i 0).val hi0) (1 : Fin 2) * 128 ≤ (i 1).val
      ∧ (i 1).val < win0_10.index (pointOf (i 0).val hi0) (1 : Fin 2) * 128 + 128
    rw [e1]
    omega

/-- THE FIRST RESULT after the run is the specification's array of new hidden states. -/
theorem final9 (c : Dev nD) : (dats m 0 c).arrAt 9 cfg0.N = hOut m c :=
  (dats m 0 c).arrAt_eq_of_cover 9 (hOut m c) (fun t _ => flushed9_eq m c t) cover9

/-- THE SECOND RESULT after the run is the specification's array of new cell states. -/
theorem final10 (c : Dev nD) : (dats m 0 c).arrAt 10 cfg0.N = cOut m c :=
  (dats m 0 c).arrAt_eq_of_cover 10 (cOut m c) (fun t _ => flushed10_eq m c t) cover10

/-! ## The run -/

/-- The kernel program's run: every weakly fair execution terminates, the two results hold the specification's arrays,
    and the arguments are unchanged. -/
theorem run : θ_run defs (onTc (τ := τ) (main (F := Ideal))) ⟨m, fun _ => 0, ρ⟩ fun r => ∀ c : Dev nD,
      r.2.mem ((c : Thread nD τ).loc main_v19_0) = hOut m c
      ∧ r.2.mem ((c : Thread nD τ).loc main_v19_1) = cOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final9 m c), (h c).2.1.trans (final10 m c), (h c).2.2⟩)
    (Cert.KernelIdeal.Value.run_blocks m ρ)

end Cert.TreeCell.Kernel

end
-- ==== Proof.lean ====
/-
  A tree-LSTM cell step over 262144 nodes: the kernel program against its reference, over the extended reals.

  Both programs sum, for every node, the hidden states and the cell states of its children (an edge list src → dst:
  gather the child's row, add it into the parent's row), and then compute per node

      f  = σ(te·W_fᵀ + h·U_fᵀ + b_U + b_f)           iou = te·W_iouᵀ + hs·U_iouᵀ + b_iou
      c' = σ(i)·tanh(u) + f·cs                       h'  = σ(o)·tanh(c')

  with hs, cs the two sums and i, o, u the three thirds of iou.  The reference forms the two sums separately and writes
  σ(v) as 1 / (1 + e^(-v)); the kernel program sums the two state arrays side by side in one pass, multiplies the
  embeddings by the two input weight matrices merged into one, and handles 2048 nodes per grid point.  None of this
  changes a value: every sum has the same terms in the same grouping, a change of float format is the identity, and
  1 / (1 + e^(-v)) is the logistic function on every extended real.  So no finiteness of the inputs is used.

  Spec.lean states the cell step entry by entry; Reference.lean shows the reference's two results are it; Block.lean,
  Transfer.lean, HostSide.lean and Kernel.lean show the kernel program's two results are it; here the five claims are
  assembled.
-/
import proofs.«167092_j29386166239562_2_alg».proof.Defs
import proofs.«167092_j29386166239562_2_alg».proof.Proof.Gen.Kernel
import proofs.«167092_j29386166239562_2_alg».proof.Proof.Gen.Kernel.Skeleton
import proofs.«167092_j29386166239562_2_alg».proof.Proof.Gen.Kernel.Launch
import proofs.«167092_j29386166239562_2_alg».proof.Proof.Gen.Kernel.Points
import proofs.«167092_j29386166239562_2_alg».proof.Proof.Gen.Kernel.Frame
import proofs.«167092_j29386166239562_2_alg».proof.Proof.Gen.KernelIdeal
import proofs.«167092_j29386166239562_2_alg».proof.Proof.Gen.KernelIdeal.Skeleton
import proofs.«167092_j29386166239562_2_alg».proof.Proof.Gen.KernelIdeal.Launch
import proofs.«167092_j29386166239562_2_alg».proof.Proof.Gen.KernelIdeal.Points
import proofs.«167092_j29386166239562_2_alg».proof.Proof.Gen.KernelIdeal.Frame
import proofs.«167092_j29386166239562_2_alg».proof.Proof.Gen.ReferenceIdeal
import proofs.«167092_j29386166239562_2_alg».proof.Proof.Gen.Pre_finite_inputs
import proofs.«167092_j29386166239562_2_alg».proof.Proof.Gen.KernelIdeal.Value
import proofs.«167092_j29386166239562_2_alg».proof.Proof.Gen.ReferenceIdeal.Run
import proofs.«167092_j29386166239562_2_alg».proof.Proof.Gen.ReferenceIdeal.Read
import proofs.«167092_j29386166239562_2_alg».proof.Proof.Reference
import proofs.«167092_j29386166239562_2_alg».proof.Proof.Kernel
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- And the reference: its run with the results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- Over the extended reals the two programs, run from memories that agree on the arguments, end with the same two
    arrays: the specification's new hidden states and new cell states of the arguments. -/
theorem algebraic : Cert.algebraic_KernelIdeal_ReferenceIdeal := by
  intro m ρ m' ρ' _ hagree
  refine ⟨fun c => Cert.TreeCell.Kernel.hOut m c, fun c => Cert.TreeCell.Kernel.cOut m c,
    Cert.TreeCell.Kernel.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8, a9, a10, a11⟩ := hagree c
    rw [(h c).1, Cert.ReferenceIdeal.Read.val_main_v63_eq, Cert.TreeCell.Ref.hidden_eq,
      a0, a1, a2, a3, a4, a5, a6, a7, a8, a9, a10, a11]
    rfl
  · obtain ⟨a0, a1, a2, a3, a4, a5, a6, a7, a8, a9, a10, a11⟩ := hagree c
    rw [(h c).2.1, Cert.ReferenceIdeal.Read.val_main_v55_eq, Cert.TreeCell.Ref.cell_eq,
      a0, a1, a2, a3, a4, a5, a6, a7, a8, a9, a10, a11]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
